-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x1600000 : Shape := ⟨2, ![2, 1600000]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x6 : Shape := ⟨2, ![256, 6]⟩
abbrev S6 : Shape := ⟨1, ![6]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x6 : S_.BroadcastsInDim S256x6 (![] : Fin 0 → Fin S256x6.rank)
  reducesTo_S256x6_S_d0_1 : S256x6.ReducesTo [0, 1] S_
  bcast_S_S6 : S_.BroadcastsInDim S6 (![] : Fin 0 → Fin S6.rank)
  reducesTo_S6_S_d0 : S6.ReducesTo [0] S_

variable [Facts]

def fn_part3 {F : FTy → Type} [FloatOps F] (main_arg12 : FVec F S6 .f32) (main_v48 : IVec S_ 1) (main_v49 : FVec F S256x6 .f32) (main_v50 : FVec F S256x6 .f32) : IVec S_ 1 :=
  let main_v51 : IVec S256x6 1 := cmpf .olt main_v49 main_v50
  let main_c_19 : IVec S_ 1 := constantI S_ 1 1#1
  let main_v52 : IVec S_ 1 := (fun x v => Host.reduce IntOp.andi x v reducesTo_S256x6_S_d0_1 h_S_) main_v51 main_c_19
  let main_v53 : IVec S_ 1 := andi main_v48 main_v52
  let main_v54 : FVec F S6 .f32 := Host.absf main_arg12
  let main_cst_20 : FVec F S_ .f32 := constant S_ .f32 0x7F800000#32
  let main_v55 : FVec F S6 .f32 := broadcastInDim S6 ![] bcast_S_S6 main_cst_20
  let main_v56 : IVec S6 1 := cmpf .olt main_v54 main_v55
  let main_c_21 : IVec S_ 1 := constantI S_ 1 1#1
  let main_v57 : IVec S_ 1 := (fun x v => Host.reduce IntOp.andi x v reducesTo_S6_S_d0 h_S_) main_v56 main_c_21
  let main_v58 : IVec S_ 1 := andi main_v53 main_v57
  main_v58

def fn_part2 {F : FTy → Type} [FloatOps F] (main_arg8 : FVec F S128x256 .f32) (main_arg9 : FVec F S256 .f32) (main_arg10 : FVec F S128x256 .f32) (main_arg11 : FVec F S256x6 .f32) (main_arg12 : FVec F S6 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S128x256 .f32 := Host.absf main_arg10
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256x6 .f32 := Host.absf main_arg11
  let main_cst_18 : FVec F S_ .f32 := constant S_ .f32 0x7F800000#32
  let main_v50 : FVec F S256x6 .f32 := broadcastInDim S256x6 ![] bcast_S_S256x6 main_cst_18
  fn_part3 (F := F) main_arg12 main_v48 main_v49 main_v50

def fn_part1 {F : FTy → Type} [FloatOps F] (main_arg5 : FVec F S64x128 .f32) (main_arg6 : FVec F S128 .f32) (main_arg7 : FVec F S64x128 .f32) (main_arg8 : FVec F S128x256 .f32) (main_arg9 : FVec F S256 .f32) (main_arg10 : FVec F S128x256 .f32) (main_arg11 : FVec F S256x6 .f32) (main_arg12 : FVec F S6 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x3 .f32) (main_arg1 : IVec S2x1600000 32) (main_arg2 : FVec F S3x64 .f32) (main_arg3 : FVec F S64 .f32) (main_arg4 : FVec F S3x64 .f32) (main_arg5 : FVec F S64x128 .f32) (main_arg6 : FVec F S128 .f32) (main_arg7 : FVec F S64x128 .f32) (main_arg8 : FVec F S128x256 .f32) (main_arg9 : FVec F S256 .f32) (main_arg10 : FVec F S128x256 .f32) (main_arg11 : FVec F S256x6 .f32) (main_arg12 : FVec F S6 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S3x64 .f32 := Host.absf main_arg2
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64 .f32 := Host.absf main_arg4
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg5 main_arg6 main_arg7 main_arg8 main_arg9 main_arg10 main_arg11 main_arg12 main_v13 main_v16
-- ==== Kernel.lean ====
abbrev S50000x3 : Shape := ⟨2, ![50000, 3]⟩
abbrev S2x1600000 : Shape := ⟨2, ![2, 1600000]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x6 : Shape := ⟨2, ![256, 6]⟩
abbrev S6 : Shape := ⟨1, ![6]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x3 : Shape := ⟨2, ![1650000, 3]⟩
abbrev S50000x1 : Shape := ⟨2, ![50000, 1]⟩
abbrev S1x64 : Shape := ⟨2, ![1, 64]⟩
abbrev S50000x64 : Shape := ⟨2, ![50000, 64]⟩
abbrev S2000x3 : Shape := ⟨2, ![2000, 3]⟩
abbrev S2000x64 : Shape := ⟨2, ![2000, 64]⟩
abbrev S1650000x64 : Shape := ⟨2, ![1650000, 64]⟩
abbrev S1x128 : Shape := ⟨2, ![1, 128]⟩
abbrev S50000x128 : Shape := ⟨2, ![50000, 128]⟩
abbrev S2000x128 : Shape := ⟨2, ![2000, 128]⟩
abbrev S1650000x128 : Shape := ⟨2, ![1650000, 128]⟩
abbrev S1x256 : Shape := ⟨2, ![1, 256]⟩
abbrev S50000x256 : Shape := ⟨2, ![50000, 256]⟩
abbrev S2000x256 : Shape := ⟨2, ![2000, 256]⟩
abbrev S1x6 : Shape := ⟨2, ![1, 6]⟩
abbrev S50000x6 : Shape := ⟨2, ![50000, 6]⟩
abbrev S2000x6 : Shape := ⟨2, ![2000, 6]⟩

abbrev nBuf : Space → Nat
  | .hbm => 88
  | .vmem => 33
  | .smem => 0
  | _ => 0

abbrev bufTy : (tb : Table) → Fin (tcTables nBuf tb) → BufTy
  | .hbm, ⟨0, _⟩ => ⟨S50000x3, .f32⟩
  | .hbm, ⟨1, _⟩ => ⟨S2x1600000, .i32⟩
  | .hbm, ⟨2, _⟩ => ⟨S3x64, .f32⟩
  | .hbm, ⟨3, _⟩ => ⟨S64, .f32⟩
  | .hbm, ⟨4, _⟩ => ⟨S3x64, .f32⟩
  | .hbm, ⟨5, _⟩ => ⟨S64x128, .f32⟩
  | .hbm, ⟨6, _⟩ => ⟨S128, .f32⟩
  | .hbm, ⟨7, _⟩ => ⟨S64x128, .f32⟩
  | .hbm, ⟨8, _⟩ => ⟨S128x256, .f32⟩
  | .hbm, ⟨9, _⟩ => ⟨S256, .f32⟩
  | .hbm, ⟨10, _⟩ => ⟨S128x256, .f32⟩
  | .hbm, ⟨11, _⟩ => ⟨S256x6, .f32⟩
  | .hbm, ⟨12, _⟩ => ⟨S6, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S50000, .i32⟩
  | .hbm, ⟨18, _⟩ => ⟨S1650000, .i32⟩
  | .hbm, ⟨19, _⟩ => ⟨S1650000, .i32⟩
  | .hbm, ⟨20, _⟩ => ⟨S_, .f32⟩
  | .hbm, ⟨21, _⟩ => ⟨S1650000, .f32⟩
  | .hbm, ⟨22, _⟩ => ⟨S_, .f32⟩
  | .hbm, ⟨23, _⟩ => ⟨S50000, .f32⟩
  | .hbm, ⟨24, _⟩ => ⟨S1650000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S1650000, .i32⟩
  | .hbm, ⟨34, _⟩ => ⟨S1650000, .i1⟩
  | .hbm, ⟨35, _⟩ => ⟨S_, .i32⟩
  | .hbm, ⟨36, _⟩ => ⟨S1650000, .i32⟩
  | .hbm, ⟨37, _⟩ => ⟨S1650000, .i32⟩
  | .hbm, ⟨38, _⟩ => ⟨S1650000, .i32⟩
  | .hbm, ⟨39, _⟩ => ⟨S1650000x1, .i32⟩
  | .hbm, ⟨40, _⟩ => ⟨S1650000x3, .f32⟩
  | .hbm, ⟨41, _⟩ => ⟨S_, .f32⟩
  | .hbm, ⟨42, _⟩ => ⟨S50000x3, .f32⟩
  | .hbm, ⟨43, _⟩ => ⟨S1650000x1, .i32⟩
  | .hbm, ⟨44, _⟩ => ⟨S50000x3, .f32⟩
  | .hbm, ⟨45, _⟩ => ⟨S50000x1, .f32⟩
  | .hbm, ⟨46, _⟩ => ⟨S50000x3, .f32⟩
  | .hbm, ⟨47, _⟩ => ⟨S50000x3, .f32⟩
  | .hbm, ⟨48, _⟩ => ⟨S1x64, .f32⟩
  | .hbm, ⟨49, _⟩ => ⟨S50000x64, .f32⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1650000x64, .f32⟩
  | .hbm, ⟨59, _⟩ => ⟨S_, .f32⟩
  | .hbm, ⟨60, _⟩ => ⟨S50000x64, .f32⟩
  | .hbm, ⟨61, _⟩ => ⟨S1650000x1, .i32⟩
  | .hbm, ⟨62, _⟩ => ⟨S50000x64, .f32⟩
  | .hbm, ⟨63, _⟩ => ⟨S50000x1, .f32⟩
  | .hbm, ⟨64, _⟩ => ⟨S50000x64, .f32⟩
  | .hbm, ⟨65, _⟩ => ⟨S50000x64, .f32⟩
  | .hbm, ⟨66, _⟩ => ⟨S1x128, .f32⟩
  | .hbm, ⟨67, _⟩ => ⟨S50000x128, .f32⟩
  | .hbm, ⟨68, _⟩ => ⟨S_, .i32⟩
  | .hbm, ⟨69, _⟩ => ⟨S1650000, .i32⟩
  | .hbm, ⟨70, _⟩ => ⟨S1650000, .i1⟩
  | .hbm, ⟨71, _⟩ => ⟨S_, .i32⟩
  | .hbm, ⟨72, _⟩ => ⟨S1650000, .i32⟩
  | .hbm, ⟨73, _⟩ => ⟨S1650000, .i32⟩
  | .hbm, ⟨74, _⟩ => ⟨S1650000, .i32⟩
  | .hbm, ⟨75, _⟩ => ⟨S1650000x1, .i32⟩
  | .hbm, ⟨76, _⟩ => ⟨S1650000x128, .f32⟩
  | .hbm, ⟨77, _⟩ => ⟨S_, .f32⟩
  | .hbm, ⟨78, _⟩ => ⟨S50000x128, .f32⟩
  | .hbm, ⟨79, _⟩ => ⟨S1650000x1, .i32⟩
  | .hbm, ⟨80, _⟩ => ⟨S50000x128, .f32⟩
  | .hbm, ⟨81, _⟩ => ⟨S50000x1, .f32⟩
  | .hbm, ⟨82, _⟩ => ⟨S50000x128, .f32⟩
  | .hbm, ⟨83, _⟩ => ⟨S50000x128, .f32⟩
  | .hbm, ⟨84, _⟩ => ⟨S1x256, .f32⟩
  | .hbm, ⟨85, _⟩ => ⟨S50000x256, .f32⟩
  | .hbm, ⟨86, _⟩ => ⟨S1x6, .f32⟩
  | .hbm, ⟨87, _⟩ => ⟨S50000x6, .f32⟩
  | .local _ .vmem, ⟨0, _⟩ => ⟨S2000x3, .f32⟩
  | .local _ .vmem, ⟨1, _⟩ => ⟨S2000x3, .f32⟩
  | .local _ .vmem, ⟨2, _⟩ => ⟨S2000x3, .f32⟩
  | .local _ .vmem, ⟨3, _⟩ => ⟨S2000x3, .f32⟩
  | .local _ .vmem, ⟨4, _⟩ => ⟨S3x64, .f32⟩
  | .local _ .vmem, ⟨5, _⟩ => ⟨S1x64, .f32⟩
  | .local _ .vmem, ⟨6, _⟩ => ⟨S3x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S64x128, .f32⟩
  | .local _ .vmem, ⟨14, _⟩ => ⟨S1x128, .f32⟩
  | .local _ .vmem, ⟨15, _⟩ => ⟨S64x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x256, .f32⟩
  | .local _ .vmem, ⟨23, _⟩ => ⟨S1x256, .f32⟩
  | .local _ .vmem, ⟨24, _⟩ => ⟨S128x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S256x6, .f32⟩
  | .local _ .vmem, ⟨30, _⟩ => ⟨S1x6, .f32⟩
  | .local _ .vmem, ⟨31, _⟩ => ⟨S2000x6, .f32⟩
  | .local _ .vmem, ⟨32, _⟩ => ⟨S2000x6, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x6 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x6 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x6 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S50000x3 : S_.BroadcastsInDim S50000x3 (![] : Fin 0 → Fin S50000x3.rank)
  bcast_S50000_S50000x1_0 : S50000.BroadcastsInDim S50000x1 (![0] : Fin 1 → Fin S50000x1.rank)
  bcast_S50000x1_S50000x3_0_1 : S50000x1.BroadcastsInDim S50000x3 (![0, 1] : Fin 2 → Fin S50000x3.rank)
  shapeCasts_S64_S1x64 : S64.ShapeCasts S1x64
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S128_S1x128 : S128.ShapeCasts S1x128
  shapeCasts_S2000x64_S2000x64 : S2000x64.ShapeCasts S2000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S256_S1x256 : S256.ShapeCasts S1x256
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  shapeCasts_S6_S1x6 : S6.ShapeCasts S1x6
  shapeCasts_S2000x256_S2000x256 : S2000x256.ShapeCasts S2000x256
  inb_S256x6_S256x6_0_0 : ∀ a, (![0, 0] : Fin 2 → Nat) a + S256x6.size a ≤ S256x6.size a
  h_S256x6 : 0 < S256x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S2000x6 : S1x6.Broadcasts S2000x6
  inb_S2000x6_S2000x6_0_0 : ∀ a, (![0, 0] : Fin 2 → Nat) a + S2000x6.size a ≤ S2000x6.size a
  h_S2000x6 : 0 < S2000x6.numel
  scatter_S50000_S1650000x1_S1650000_n_0_0_1_wf : ScatterDims.WF S50000 S1650000x1 S1650000 [] [0] [0] 1
  gather_S50000x3_S1650000x1_S1650000x3_1_0_n_n_0_1_13_wf : GatherDims.WF S50000x3 S1650000x1 S1650000x3 [1] [0] [] [0] [] 1 ![1, 3]
  scatter_S50000x3_S1650000x1_S1650000x3_1_0_0_1_wf : ScatterDims.WF S50000x3 S1650000x1 S1650000x3 [1] [0] [0] 1
  dot_S2000x3_S3x64_S2000x64_1_0_0_1_n_n_wf : DotDims.WF S2000x3 S3x64 S2000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S2000x64_S64x128_S2000x128_1_0_0_1_n_n_wf : DotDims.WF S2000x64 S64x128 S2000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S2000x128_S128x256_S2000x256_1_0_0_1_n_n_wf : DotDims.WF S2000x128 S128x256 S2000x256 [1] [0] [0] [1] [] []
  dot_S2000x256_S256x6_S2000x6_1_0_0_1_n_n_wf : DotDims.WF S2000x256 S256x6 S2000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S50000x3.size a
  hwx0_0 : ∀ i : grid0.Coords, EltTy.bits .f32 = 32 ∨ (Rect.block (s := S50000x3) S2000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x3.size a ≤ S50000x3.size a
  hwx0_1 : ∀ i : grid0.Coords, EltTy.bits .f32 = 32 ∨ (Rect.block (s := S50000x3) S2000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64.size a ≤ S3x64.size a
  hwx0_2 : ∀ i : grid0.Coords, EltTy.bits .f32 = 32 ∨ (Rect.block (s := S3x64) S3x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64.size a ≤ S3x64.size a
  hwx0_4 : ∀ i : grid0.Coords, EltTy.bits .f32 = 32 ∨ (Rect.block (s := S3x64) S3x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S50000x64.size a
  hwx0_5 : ∀ i : grid0.Coords, EltTy.bits .f32 = 32 ∨ (Rect.block (s := S50000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x256.size a ≤ S128x256.size a
  hwx2_4 : ∀ i : grid2.Coords, EltTy.bits .f32 = 32 ∨ (Rect.block (s := S128x256) S128x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x6.size a ≤ S256x6.size a
  hwx3_1 : ∀ i : grid3.Coords, EltTy.bits .f32 = 32 ∨ (Rect.block (s := S256x6) S256x6.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x6.size a ≤ S1x6.size a
  hwx3_2 : ∀ i : grid3.Coords, EltTy.bits .f32 = 32 ∨ (Rect.block (s := S1x6) S1x6.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x6.size a ≤ S50000x6.size a
  hwx3_3 : ∀ i : grid3.Coords, EltTy.bits .f32 = 32 ∨ (Rect.block (s := S50000x6) S2000x6.size (cc3_transform_3 i) (hinb3_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000x3_S1650000x1_S1650000x3_1_0_n_n_0_1_13 : GatherDims S50000x3 S1650000x1 S1650000x3 where
  offsetDims := [1]
  collapsedSliceDims := [0]
  operandBatchingDims := []
  startIndicesBatchingDims := []
  startIndexMap := [0]
  indexVectorDim := 1
  sliceSizes := ![1, 3]
  wf := gather_S50000x3_S1650000x1_S1650000x3_1_0_n_n_0_1_13_wf
def scatter_S50000x3_S1650000x1_S1650000x3_1_0_0_1 : ScatterDims S50000x3 S1650000x1 S1650000x3 where
  updateWindowDims := [1]
  insertedWindowDims := [0]
  scatterDimsToOperandDims := [0]
  indexVectorDim := 1
  wf := scatter_S50000x3_S1650000x1_S1650000x3_1_0_0_1_wf
def dot_S2000x3_S3x64_S2000x64_1_0_0_1_n_n : DotDims S2000x3 S3x64 S2000x64 where
  lhsContracting := [1]
  rhsContracting := [0]
  lhsNonContracting := [0]
  rhsNonContracting := [1]
  lhsBatch := []
  rhsBatch := []
  wf := dot_S2000x3_S3x64_S2000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x6_S2000x6_1_0_0_1_n_n : DotDims S2000x256 S256x6 S2000x6 where
  lhsContracting := [1]
  rhsContracting := [0]
  lhsNonContracting := [0]
  rhsNonContracting := [1]
  lhsBatch := []
  rhsBatch := []
  wf := dot_S2000x256_S256x6_S2000x6_1_0_0_1_n_n_wf

abbrev win0_0 : Pipeline.Window sig grid0 :=
  Pipeline.Window.ofSpec (Memref.whole main_v27) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v59) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S256x6.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x6.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S2000x6.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x3 : Shape := ⟨2, ![50000, 3]⟩
abbrev S2x1600000 : Shape := ⟨2, ![2, 1600000]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x6 : Shape := ⟨2, ![256, 6]⟩
abbrev S6 : Shape := ⟨1, ![6]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x3 : Shape := ⟨2, ![1650000, 3]⟩
abbrev S50000x1 : Shape := ⟨2, ![50000, 1]⟩
abbrev S50000x64 : Shape := ⟨2, ![50000, 64]⟩
abbrev S1x64 : Shape := ⟨2, ![1, 64]⟩
abbrev S1650000x64 : Shape := ⟨2, ![1650000, 64]⟩
abbrev S50000x128 : Shape := ⟨2, ![50000, 128]⟩
abbrev S1x128 : Shape := ⟨2, ![1, 128]⟩
abbrev S1650000x128 : Shape := ⟨2, ![1650000, 128]⟩
abbrev S50000x256 : Shape := ⟨2, ![50000, 256]⟩
abbrev S1x256 : Shape := ⟨2, ![1, 256]⟩
abbrev S50000x6 : Shape := ⟨2, ![50000, 6]⟩
abbrev S1x6 : Shape := ⟨2, ![1, 6]⟩

abbrev nBuf : Space → Nat
  | .hbm => 149
  | .vmem => 0
  | .smem => 0
  | _ => 0

abbrev hbmTy0_0 (i : Nat) : BufTy := match i % 128 with
  | 0 => ⟨S50000x3, .f32⟩
  | 1 => ⟨S2x1600000, .i32⟩
  | 2 => ⟨S3x64, .f32⟩
  | 3 => ⟨S64, .f32⟩
  | 4 => ⟨S3x64, .f32⟩
  | 5 => ⟨S64x128, .f32⟩
  | 6 => ⟨S128, .f32⟩
  | 7 => ⟨S64x128, .f32⟩
  | 8 => ⟨S128x256, .f32⟩
  | 9 => ⟨S256, .f32⟩
  | 10 => ⟨S128x256, .f32⟩
  | 11 => ⟨S256x6, .f32⟩
  | 12 => ⟨S6, .f32⟩
  | 13 => ⟨S1x1600000, .i32⟩
  | 14 => ⟨S1600000, .i32⟩
  | 15 => ⟨S1x1600000, .i32⟩
  | 16 => ⟨S1600000, .i32⟩
  | 17 => ⟨S50000, .i32⟩
  | 18 => ⟨S1650000, .i32⟩
  | 19 => ⟨S1650000, .i32⟩
  | 20 => ⟨S_, .f32⟩
  | 21 => ⟨S1650000, .f32⟩
  | 22 => ⟨S_, .f32⟩
  | 23 => ⟨S50000, .f32⟩
  | 24 => ⟨S1650000x1, .i32⟩
  | 25 => ⟨S50000, .f32⟩
  | 26 => ⟨S_, .f32⟩
  | 27 => ⟨S50000, .f32⟩
  | 28 => ⟨S50000, .f32⟩
  | 29 => ⟨S_, .f32⟩
  | 30 => ⟨S50000, .f32⟩
  | 31 => ⟨S50000, .f32⟩
  | 32 => ⟨S_, .i32⟩
  | 33 => ⟨S1650000, .i32⟩
  | 34 => ⟨S1650000, .i1⟩
  | 35 => ⟨S_, .i32⟩
  | 36 => ⟨S1650000, .i32⟩
  | 37 => ⟨S1650000, .i32⟩
  | 38 => ⟨S1650000, .i32⟩
  | 39 => ⟨S1650000x1, .i32⟩
  | 40 => ⟨S1650000x3, .f32⟩
  | 41 => ⟨S_, .f32⟩
  | 42 => ⟨S50000x3, .f32⟩
  | 43 => ⟨S1650000x1, .i32⟩
  | 44 => ⟨S50000x3, .f32⟩
  | 45 => ⟨S50000x1, .f32⟩
  | 46 => ⟨S50000x3, .f32⟩
  | 47 => ⟨S50000x3, .f32⟩
  | 48 => ⟨S50000x64, .f32⟩
  | 49 => ⟨S1x64, .f32⟩
  | 50 => ⟨S50000x64, .f32⟩
  | 51 => ⟨S50000x64, .f32⟩
  | 52 => ⟨S50000x64, .f32⟩
  | 53 => ⟨S50000x64, .f32⟩
  | 54 => ⟨S_, .f32⟩
  | 55 => ⟨S50000x64, .f32⟩
  | 56 => ⟨S50000x64, .f32⟩
  | 57 => ⟨S50000, .i32⟩
  | 58 => ⟨S1650000, .i32⟩
  | 59 => ⟨S1650000, .i32⟩
  | 60 => ⟨S_, .f32⟩
  | 61 => ⟨S1650000, .f32⟩
  | 62 => ⟨S_, .f32⟩
  | 63 => ⟨S50000, .f32⟩
  | 64 => ⟨S1650000x1, .i32⟩
  | 65 => ⟨S50000, .f32⟩
  | 66 => ⟨S_, .f32⟩
  | 67 => ⟨S50000, .f32⟩
  | 68 => ⟨S50000, .f32⟩
  | 69 => ⟨S_, .f32⟩
  | 70 => ⟨S50000, .f32⟩
  | 71 => ⟨S50000, .f32⟩
  | 72 => ⟨S_, .i32⟩
  | 73 => ⟨S1650000, .i32⟩
  | 74 => ⟨S1650000, .i1⟩
  | 75 => ⟨S_, .i32⟩
  | 76 => ⟨S1650000, .i32⟩
  | 77 => ⟨S1650000, .i32⟩
  | 78 => ⟨S1650000, .i32⟩
  | 79 => ⟨S1650000x1, .i32⟩
  | 80 => ⟨S1650000x64, .f32⟩
  | 81 => ⟨S_, .f32⟩
  | 82 => ⟨S50000x64, .f32⟩
  | 83 => ⟨S1650000x1, .i32⟩
  | 84 => ⟨S50000x64, .f32⟩
  | 85 => ⟨S50000x1, .f32⟩
  | 86 => ⟨S50000x64, .f32⟩
  | 87 => ⟨S50000x64, .f32⟩
  | 88 => ⟨S50000x128, .f32⟩
  | 89 => ⟨S1x128, .f32⟩
  | 90 => ⟨S50000x128, .f32⟩
  | 91 => ⟨S50000x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000, .i32⟩
  | 98 => ⟨S1650000, .i32⟩
  | 99 => ⟨S1650000, .i32⟩
  | 100 => ⟨S_, .f32⟩
  | 101 => ⟨S1650000, .f32⟩
  | 102 => ⟨S_, .f32⟩
  | 103 => ⟨S50000, .f32⟩
  | 104 => ⟨S1650000x1, .i32⟩
  | 105 => ⟨S50000, .f32⟩
  | 106 => ⟨S_, .f32⟩
  | 107 => ⟨S50000, .f32⟩
  | 108 => ⟨S50000, .f32⟩
  | 109 => ⟨S_, .f32⟩
  | 110 => ⟨S50000, .f32⟩
  | 111 => ⟨S50000, .f32⟩
  | 112 => ⟨S_, .i32⟩
  | 113 => ⟨S1650000, .i32⟩
  | 114 => ⟨S1650000, .i1⟩
  | 115 => ⟨S_, .i32⟩
  | 116 => ⟨S1650000, .i32⟩
  | 117 => ⟨S1650000, .i32⟩
  | 118 => ⟨S1650000, .i32⟩
  | 119 => ⟨S1650000x1, .i32⟩
  | 120 => ⟨S1650000x128, .f32⟩
  | 121 => ⟨S_, .f32⟩
  | 122 => ⟨S50000x128, .f32⟩
  | 123 => ⟨S1650000x1, .i32⟩
  | 124 => ⟨S50000x128, .f32⟩
  | 125 => ⟨S50000x1, .f32⟩
  | 126 => ⟨S50000x128, .f32⟩
  | 127 => ⟨S50000x128, .f32⟩
  | _ => ⟨S50000x3, .f32⟩

abbrev hbmTy0_1 (i : Nat) : BufTy := match i % 128 with
  | 0 => ⟨S50000x256, .f32⟩
  | 1 => ⟨S1x256, .f32⟩
  | 2 => ⟨S50000x256, .f32⟩
  | 3 => ⟨S50000x256, .f32⟩
  | 4 => ⟨S50000x256, .f32⟩
  | 5 => ⟨S50000x256, .f32⟩
  | 6 => ⟨S_, .f32⟩
  | 7 => ⟨S50000x256, .f32⟩
  | 8 => ⟨S50000x256, .f32⟩
  | 9 => ⟨S50000x6, .f32⟩
  | 10 => ⟨S1x6, .f32⟩
  | 11 => ⟨S50000x6, .f32⟩
  | 12 => ⟨S50000x6, .f32⟩
  | 13 => ⟨S50000x6, .f32⟩
  | 14 => ⟨S50000x6, .f32⟩
  | 15 => ⟨S_, .f32⟩
  | 16 => ⟨S50000x6, .f32⟩
  | 17 => ⟨S50000x6, .f32⟩
  | 18 => ⟨S_, .f32⟩
  | 19 => ⟨S50000x6, .f32⟩
  | 20 => ⟨S50000x6, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call0_cst : Ref sig .tc := ⟨.hbm, 54, rfl⟩
abbrev main_call0_v0 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_c_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call1_cst : Ref sig .tc := ⟨.hbm, 94, rfl⟩
abbrev main_call1_v0 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_12 : Ref sig .tc := ⟨.hbm, 100, rfl⟩
abbrev main_v69 : Ref sig .tc := ⟨.hbm, 101, rfl⟩
abbrev main_cst_13 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_14 : Ref sig .tc := ⟨.hbm, 106, rfl⟩
abbrev main_v73 : Ref sig .tc := ⟨.hbm, 107, rfl⟩
abbrev main_v74 : Ref sig .tc := ⟨.hbm, 108, rfl⟩
abbrev main_cst_15 : Ref sig .tc := ⟨.hbm, 109, rfl⟩
abbrev main_v75 : Ref sig .tc := ⟨.hbm, 110, rfl⟩
abbrev main_v76 : Ref sig .tc := ⟨.hbm, 111, rfl⟩
abbrev main_c_16 : Ref sig .tc := ⟨.hbm, 112, rfl⟩
abbrev main_v77 : Ref sig .tc := ⟨.hbm, 113, rfl⟩
abbrev main_v78 : Ref sig .tc := ⟨.hbm, 114, rfl⟩
abbrev main_c_17 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_18 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_call2_cst : Ref sig .tc := ⟨.hbm, 134, rfl⟩
abbrev main_call2_v0 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_19 : Ref sig .tc := ⟨.hbm, 143, rfl⟩
abbrev main_v103 : Ref sig .tc := ⟨.hbm, 144, rfl⟩
abbrev main_v104 : Ref sig .tc := ⟨.hbm, 145, rfl⟩
abbrev main_cst_20 : Ref sig .tc := ⟨.hbm, 146, rfl⟩
abbrev main_v105 : Ref sig .tc := ⟨.hbm, 147, rfl⟩
abbrev main_v106 : Ref sig .tc := ⟨.hbm, 148, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S50000x3 : S_.BroadcastsInDim S50000x3 (![] : Fin 0 → Fin S50000x3.rank)
  bcast_S50000_S50000x1_0 : S50000.BroadcastsInDim S50000x1 (![0] : Fin 1 → Fin S50000x1.rank)
  bcast_S50000x1_S50000x3_0_1 : S50000x1.BroadcastsInDim S50000x3 (![0, 1] : Fin 2 → Fin S50000x3.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S6_S1x6_1 : S6.BroadcastsInDim S1x6 (![1] : Fin 1 → Fin S1x6.rank)
  bcast_S1x6_S50000x6_0_1 : S1x6.BroadcastsInDim S50000x6 (![0, 1] : Fin 2 → Fin S50000x6.rank)
  bcast_S_S50000x6 : S_.BroadcastsInDim S50000x6 (![] : Fin 0 → Fin S50000x6.rank)
  scatter_S50000_S1650000x1_S1650000_n_0_0_1_wf : ScatterDims.WF S50000 S1650000x1 S1650000 [] [0] [0] 1
  gather_S50000x3_S1650000x1_S1650000x3_1_0_n_n_0_1_13_wf : GatherDims.WF S50000x3 S1650000x1 S1650000x3 [1] [0] [] [0] [] 1 ![1, 3]
  scatter_S50000x3_S1650000x1_S1650000x3_1_0_0_1_wf : ScatterDims.WF S50000x3 S1650000x1 S1650000x3 [1] [0] [0] 1
  dot_S50000x3_S3x64_S50000x64_1_0_0_1_n_n_wf : DotDims.WF S50000x3 S3x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x128_S50000x128_1_0_0_1_n_n_wf : DotDims.WF S50000x64 S64x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x256_S50000x256_1_0_0_1_n_n_wf : DotDims.WF S50000x128 S128x256 S50000x256 [1] [0] [0] [1] [] []
  dot_S50000x256_S256x6_S50000x6_1_0_0_1_n_n_wf : DotDims.WF S50000x256 S256x6 S50000x6 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000x3_S1650000x1_S1650000x3_1_0_n_n_0_1_13 : GatherDims S50000x3 S1650000x1 S1650000x3 where
  offsetDims := [1]
  collapsedSliceDims := [0]
  operandBatchingDims := []
  startIndicesBatchingDims := []
  startIndexMap := [0]
  indexVectorDim := 1
  sliceSizes := ![1, 3]
  wf := gather_S50000x3_S1650000x1_S1650000x3_1_0_n_n_0_1_13_wf
def scatter_S50000x3_S1650000x1_S1650000x3_1_0_0_1 : ScatterDims S50000x3 S1650000x1 S1650000x3 where
  updateWindowDims := [1]
  insertedWindowDims := [0]
  scatterDimsToOperandDims := [0]
  indexVectorDim := 1
  wf := scatter_S50000x3_S1650000x1_S1650000x3_1_0_0_1_wf
def dot_S50000x3_S3x64_S50000x64_1_0_0_1_n_n : DotDims S50000x3 S3x64 S50000x64 where
  lhsContracting := [1]
  rhsContracting := [0]
  lhsNonContracting := [0]
  rhsNonContracting := [1]
  lhsBatch := []
  rhsBatch := []
  wf := dot_S50000x3_S3x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x6_S50000x6_1_0_0_1_n_n : DotDims S50000x256 S256x6 S50000x6 where
  lhsContracting := [1]
  rhsContracting := [0]
  lhsNonContracting := [0]
  rhsNonContracting := [1]
  lhsBatch := []
  rhsBatch := []
  wf := dot_S50000x256_S256x6_S50000x6_1_0_0_1_n_n_wf

class Facts : Prop extends Facts₀ where

variable [Facts]
-- ==== Proof.KernelRun.lean ====
/-
  The idealized kernel program's run with its result named.

  The program is four tiled layers among stretches of whole-array operations. Every weakly fair execution ends, nothing faulting,
  with each buffer of a core at the contents the generated fold through the program's segments gives it (`Gen.W8`); the generated
  frame states this of the thirteen argument arrays only. Here the same launch is read at one more buffer, the result array, so the
  final state has the result at `Gen.W8` of its reference and the arguments as launched.
-/
import proofs.«128528_j9612136808894_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the fold's contents and the
    argument arrays as launched. -/
theorem run_result : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.RunValue

end
-- ==== Proof.LayerTile0.lean ====
/-
  One graph-convolution layer's tile arithmetic, read entry by entry on the extended reals.

  A tile of the layer takes 2000 rows of the neighbourhood averages `a` and of the node features `x` (3 columns each), the
  two 3 × 64 weight matrices `w` (for the averages) and `wr` (for the features) and the bias row `b`, and stores
  `max (a·w + x·wr + b, 0)`. Entry (p, q) of that tile is therefore
  `max ((∑ₖ a(p,k)·w(k,q) + ∑ₖ x(p,k)·wr(k,q)) + b(0,q)) 0`: a change of float format is the identity on the extended reals, a
  matrix product into a zero accumulator is the plain sum over the contracted axis, and a row broadcast reads its one row.
-/
import proofs.«128528_j9612136808894_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer0

open Cert.KernelIdeal Cert.KernelIdeal.Gen Idealize.ShloMosaic Idealize.ShloMosaic.ValueIdx

/-- The product's left operand is read at the output's row … -/
theorem lhs_row (i : S2000x64.Idx) (s : dot_S2000x3_S3x64_S2000x64_1_0_0_1_n_n.contr.Idx) : (dot_S2000x3_S3x64_S2000x64_1_0_0_1_n_n.lhsIdx i s 0).val = (i 0).val := by
  unfold DotDims.lhsIdx
  rw [dif_neg (show ¬(0 : Fin S2000x3.rank) ∈ dot_S2000x3_S3x64_S2000x64_1_0_0_1_n_n.lhsBatch by decide), dif_pos (show (0 : Fin S2000x3.rank) ∈ dot_S2000x3_S3x64_S2000x64_1_0_0_1_n_n.lhsNonContracting by decide)]
  rfl
/-- … and the contraction position; -/
theorem lhs_col (i : S2000x64.Idx) (s : dot_S2000x3_S3x64_S2000x64_1_0_0_1_n_n.contr.Idx) : (dot_S2000x3_S3x64_S2000x64_1_0_0_1_n_n.lhsIdx i s 1).val = (s ⟨0, by decide⟩).val :=
  dot_S2000x3_S3x64_S2000x64_1_0_0_1_n_n.lhsIdx_val_of_single rfl i s
/-- its right operand at the contraction position … -/
theorem rhs_row (i : S2000x64.Idx) (s : dot_S2000x3_S3x64_S2000x64_1_0_0_1_n_n.contr.Idx) : (dot_S2000x3_S3x64_S2000x64_1_0_0_1_n_n.rhsIdx i s 0).val = (s ⟨0, by decide⟩).val :=
  dot_S2000x3_S3x64_S2000x64_1_0_0_1_n_n.rhsIdx_val_of_single rfl i s
/-- … and the output's column. -/
theorem rhs_col (i : S2000x64.Idx) (s : dot_S2000x3_S3x64_S2000x64_1_0_0_1_n_n.contr.Idx) : (dot_S2000x3_S3x64_S2000x64_1_0_0_1_n_n.rhsIdx i s 1).val = (i 1).val := by
  unfold DotDims.rhsIdx
  rw [dif_neg (show ¬(1 : Fin S3x64.rank) ∈ dot_S2000x3_S3x64_S2000x64_1_0_0_1_n_n.rhsBatch by decide), dif_pos (show (1 : Fin S3x64.rank) ∈ dot_S2000x3_S3x64_S2000x64_1_0_0_1_n_n.rhsNonContracting by decide)]
  rfl

/-- A 2000 × 3 tile times a 3 × 64 matrix, accumulated from zero: entry (p, q) is `∑ₖ l(p,k)·r(k,q)`. -/
theorem tile_product_apply {φ₁ φ₂ : FTy} (l : FVec Ideal S2000x3 φ₁) (r : FVec Ideal S3x64 φ₂) (p : Fin 2000) (q : Fin 64) :
    matmul dot_S2000x3_S3x64_S2000x64_1_0_0_1_n_n none l r (constant S2000x64 .f32 0x00000000#32) (ix2 p q)
      = ∑ k : Fin 3, l (ix2 p k) * r (ix2 k q) := by
  simp only [matmul]
  rw [Ideal.matmul_constant_zero_apply, ← Equiv.sum_comp (contrEquiv1 dot_S2000x3_S3x64_S2000x64_1_0_0_1_n_n 3 rfl rfl).symm]
  refine Finset.sum_congr rfl fun k _ => ?_
  have hk := contrEquiv1_symm_val dot_S2000x3_S3x64_S2000x64_1_0_0_1_n_n 3 rfl rfl k
  have el : dot_S2000x3_S3x64_S2000x64_1_0_0_1_n_n.lhsIdx (ix2 p q) ((contrEquiv1 dot_S2000x3_S3x64_S2000x64_1_0_0_1_n_n 3 rfl rfl).symm k) = ix2 p k := funext fun a => Fin.ext (by
    match a with
    | ⟨0, _⟩ => exact lhs_row _ _
    | ⟨1, _⟩ => exact (lhs_col _ _).trans hk)
  have er : dot_S2000x3_S3x64_S2000x64_1_0_0_1_n_n.rhsIdx (ix2 p q) ((contrEquiv1 dot_S2000x3_S3x64_S2000x64_1_0_0_1_n_n 3 rfl rfl).symm k) = ix2 k q := funext fun a => Fin.ext (by
    match a with
    | ⟨0, _⟩ => exact (rhs_row _ _).trans hk
    | ⟨1, _⟩ => exact rhs_col _ _)
  rw [el, er]

/-- Entry (p, q) of the tile the layer stores. -/
theorem tile_apply (a x : Vec Ideal S2000x3 .f32) (w wr : Vec Ideal S3x64 .f32) (b : Vec Ideal S1x64 .f32) (p : Fin 2000) (q : Fin 64) :
    k0_pay1 (F := Ideal) a x w wr b (ix2 p q)
      = max ((∑ k : Fin 3, a (ix2 p k) * w (ix2 k q) + ∑ k : Fin 3, x (ix2 p k) * wr (ix2 k q)) + b (ix2 (0 : Fin 1) q))
          (Ideal.ofBits .f32 0x00000000#32) := by
  unfold k0_pay1
  rw [maximumf_apply, addf_apply, addf_apply, tile_product_apply, tile_product_apply, broadcastTo_1b_ab_apply]
  simp only [shapeCast_self, truncf_apply, broadcast_apply]
  rfl

end Cert.KernelIdeal.Layer0

end
-- ==== Proof.LayerArray0.lean ====
/-
  One graph-convolution layer as a whole-array function.

  The layer is run tile by tile over 25 row blocks of 2000 rows. Block `t` of the averages and of the features are rows
  `2000·t … 2000·t + 1999` of their arrays; the two weight matrices and the bias row are read whole at every block. So what block
  `t` writes back is rows `2000·t … 2000·t + 1999` of ONE function of the five arrays — at (r, q):
  `max ((∑ₖ a(r,k)·w(k,q) + ∑ₖ x(r,k)·wr(k,q)) + b(0,q)) 0` — and, the 25 blocks covering the 50000 rows, the layer's output
  array ends holding that function, whatever the five arrays held when the layer started.
-/
import proofs.«128528_j9612136808894_1_alg».proof.Proof.Gen.KernelIdeal.Frame
import proofs.«128528_j9612136808894_1_alg».proof.Proof.LayerTile0

set_option maxRecDepth 16384

noncomputable section

namespace Cert.KernelIdeal.Layer0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer at row `r` and column `q`, from the averages `a`, the features `x`, the weights `w`, `wr` and the bias row `b`. -/
def layerAt (a x : S50000x3.Idx → EReal) (w wr : S3x64.Idx → EReal) (b : S1x64.Idx → EReal) (r : Fin 50000) (q : Fin 64) : EReal :=
  max ((∑ k : Fin 3, a (ix2 r k) * w (ix2 k q) + ∑ k : Fin 3, x (ix2 r k) * wr (ix2 k q)) + b (ix2 (0 : Fin 1) q))
    (Ideal.ofBits .f32 0x00000000#32)

/-- The layer's output array. -/
def layerOut (a x : S50000x3.Idx → EReal) (w wr : S3x64.Idx → EReal) (b : S1x64.Idx → EReal) : S50000x64.Idx → EReal :=
  fun i => layerAt a x w wr b ⟨(i 0).val, (i 0).isLt⟩ ⟨(i 1).val, (i 1).isLt⟩

/-- Where each window's block sits at point `t`: the row-tiled ones at block row `t`, the whole ones at the origin. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the averages' block at point `t` is row `2000·t + p` of the array. -/
theorem blk_a (c : Dev nD) (t : Fin cfg0.N) (p : Fin 2000) (k : Fin 3) (r : Fin 50000) (hr : r.val = t.val * 2000 + p.val) :
    (iblk0 V c 0 t : Vec Ideal S2000x3 .f32) (ix2 p k) = (V c main_v27 : S50000x3.Idx → EReal) (ix2 r k) := by
  obtain ⟨e0, e1, -⟩ := block_index t
  unfold iblk0
  rw [View.read_apply]
  show V c main_v27 _ = V c main_v27 _
  refine congrArg (V c main_v27) (funext fun d => Fin.ext ?_)
  match d with
  | ⟨0, _⟩ => show win0_0.index t 0 * 2000 + 1 * p.val = r.val; rw [e0, hr]; omega
  | ⟨1, _⟩ => show win0_0.index t 1 * 3 + 1 * k.val = k.val; rw [e1]; omega

/-- Row `p` of the features' block at point `t` is row `2000·t + p` of the array. -/
theorem blk_x (c : Dev nD) (t : Fin cfg0.N) (p : Fin 2000) (k : Fin 3) (r : Fin 50000) (hr : r.val = t.val * 2000 + p.val) :
    (iblk0 V c 1 t : Vec Ideal S2000x3 .f32) (ix2 p k) = (V c main_arg0 : S50000x3.Idx → EReal) (ix2 r k) := by
  obtain ⟨-, -, e0, e1, -⟩ := block_index t
  unfold iblk0
  rw [View.read_apply]
  show V c main_arg0 _ = V c main_arg0 _
  refine congrArg (V c main_arg0) (funext fun d => Fin.ext ?_)
  match d with
  | ⟨0, _⟩ => show win0_1.index t 0 * 2000 + 1 * p.val = r.val; rw [e0, hr]; omega
  | ⟨1, _⟩ => show win0_1.index t 1 * 3 + 1 * k.val = k.val; rw [e1]; omega

/-- The averages' weights are read whole at every point. -/
theorem blk_w (c : Dev nD) (t : Fin cfg0.N) (k : Fin 3) (q : Fin 64) :
    (iblk0 V c 2 t : Vec Ideal S3x64 .f32) (ix2 k q) = (V c main_arg2 : S3x64.Idx → EReal) (ix2 k q) := by
  obtain ⟨-, -, -, -, e0, e1, -⟩ := block_index t
  unfold iblk0
  rw [View.read_apply]
  show V c main_arg2 _ = V c main_arg2 _
  refine congrArg (V c main_arg2) (funext fun d => Fin.ext ?_)
  match d with
  | ⟨0, _⟩ => show win0_2.index t 0 * 3 + 1 * k.val = k.val; rw [e0]; omega
  | ⟨1, _⟩ => show win0_2.index t 1 * 64 + 1 * q.val = q.val; rw [e1]; omega

/-- The bias row is read whole at every point. -/
theorem blk_b (c : Dev nD) (t : Fin cfg0.N) (q : Fin 64) :
    (iblk0 V c 3 t : Vec Ideal S1x64 .f32) (ix2 (0 : Fin 1) q) = (V c main_v28 : S1x64.Idx → EReal) (ix2 (0 : Fin 1) q) := by
  obtain ⟨-, -, -, -, -, -, e0, e1, -⟩ := block_index t
  unfold iblk0
  rw [View.read_apply]
  show V c main_v28 _ = V c main_v28 _
  refine congrArg (V c main_v28) (funext fun d => Fin.ext ?_)
  match d with
  | ⟨0, _⟩ => show win0_3.index t 0 * 1 + 1 * 0 = 0; rw [e0]
  | ⟨1, _⟩ => show win0_3.index t 1 * 64 + 1 * q.val = q.val; rw [e1]; omega

/-- The features' weights are read whole at every point. -/
theorem blk_wr (c : Dev nD) (t : Fin cfg0.N) (k : Fin 3) (q : Fin 64) :
    (iblk0 V c 4 t : Vec Ideal S3x64 .f32) (ix2 k q) = (V c main_arg4 : S3x64.Idx → EReal) (ix2 k q) := by
  obtain ⟨-, -, -, -, -, -, -, -, e0, e1, -⟩ := block_index t
  unfold iblk0
  rw [View.read_apply]
  show V c main_arg4 _ = V c main_arg4 _
  refine congrArg (V c main_arg4) (funext fun d => Fin.ext ?_)
  match d with
  | ⟨0, _⟩ => show win0_4.index t 0 * 3 + 1 * k.val = k.val; rw [e0]; omega
  | ⟨1, _⟩ => show win0_4.index t 1 * 64 + 1 * q.val = q.val; rw [e1]; omega

/-- Entry (p, q) of the tile stored at point `t` is the layer at row `2000·t + p` and column `q` of the five arrays. -/
theorem tile_eq (c : Dev nD) (t : Fin cfg0.N) (p : Fin 2000) (q : Fin 64) (r : Fin 50000) (hr : r.val = t.val * 2000 + p.val) :
    k0_pay1 (F := Ideal) (iblk0 V c 0 t) (iblk0 V c 1 t) (iblk0 V c 2 t) (iblk0 V c 4 t) (iblk0 V c 3 t) (ix2 p q)
      = layerAt (V c main_v27) (V c main_arg0) (V c main_arg2) (V c main_arg4) (V c main_v28) r q := by
  refine (tile_apply (iblk0 V c 0 t) (iblk0 V c 1 t) (iblk0 V c 2 t) (iblk0 V c 4 t) (iblk0 V c 3 t) p q).trans ?_
  unfold layerAt
  simp only [blk_a V c t p _ r hr, blk_x V c t p _ r hr, blk_w V c t, blk_wr V c t, blk_b V c t]

/-- WHAT POINT `t` WRITES BACK is block `t` of the layer's output array. -/
theorem flushed_eq (c : Dev nD) (t : Fin cfg0.N) :
    (dat0 V c).flushed 5 t = ((cfg0.win 5).blk t).view.read (Elt Ideal)
      (layerOut (V c main_v27) (V c main_arg0) (V c main_arg2) (V c main_arg4) (V c main_v28)) := by
  show (cfg0.win 5).cut (grid0.coords t) ((dat0 V c).after 5 t) = _
  rw [after0_5]
  unfold out0_5
  rw [View.canon_unit_zero hz]
  simp only [View.ld_unit_zero (S := S2000x3) hz, View.ld_unit_zero (S := S3x64) hz, View.ld_unit_zero (S := S1x64) hz]
  obtain ⟨-, -, -, -, -, -, -, -, -, -, e0, e1⟩ := block_index t
  funext y
  have hy : y = ix2 (⟨(y 0).val, (y 0).isLt⟩ : Fin 2000) (⟨(y 1).val, (y 1).isLt⟩ : Fin 64) :=
    funext fun d => by match d with | ⟨0, _⟩ => rfl | ⟨1, _⟩ => rfl
  have h0 : ((((cfg0.win 5).blk t).view.emb y) 0).val = t.val * 2000 + (y 0).val := by
    show win0_5.index t 0 * 2000 + 1 * (y 0).val = _; rw [e0]; omega
  have h1 : ((((cfg0.win 5).blk t).view.emb y) 1).val = (y 1).val := by
    show win0_5.index t 1 * 64 + 1 * (y 1).val = _; rw [e1]; omega
  show k0_pay1 (F := Ideal) (iblk0 V c 0 t) (iblk0 V c 1 t) (iblk0 V c 2 t) (iblk0 V c 4 t) (iblk0 V c 3 t) y
    = layerAt (V c main_v27) (V c main_arg0) (V c main_arg2) (V c main_arg4) (V c main_v28)
        ⟨((((cfg0.win 5).blk t).view.emb y) 0).val, ((((cfg0.win 5).blk t).view.emb y) 0).isLt⟩
        ⟨((((cfg0.win 5).blk t).view.emb y) 1).val, ((((cfg0.win 5).blk t).view.emb y) 1).isLt⟩
  refine (congrArg (k0_pay1 (F := Ideal) (iblk0 V c 0 t) (iblk0 V c 1 t) (iblk0 V c 2 t) (iblk0 V c 4 t) (iblk0 V c 3 t)) hy).trans ?_
  refine (tile_eq V c t ⟨(y 0).val, (y 0).isLt⟩ ⟨(y 1).val, (y 1).isLt⟩ ⟨((((cfg0.win 5).blk t).view.emb y) 0).val, ((((cfg0.win 5).blk t).view.emb y) 0).isLt⟩ h0).trans ?_
  exact congrArg (layerAt (V c main_v27) (V c main_arg0) (V c main_arg2) (V c main_arg4) (V c main_v28) _) (Fin.ext h1.symm)

/-- An index of the output array is in point `t`'s block iff each coordinate is in the block's range on its axis. -/
theorem mem_blk (t : Fin cfg0.N) (i : S50000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v29).slice (win0_5.rect t)).set ↔ _
  rw [View.set_slice_whole, Rect.mem_set_unit]
  exact Iff.rfl

/-- Row `r` of the output array lies in block `r / 2000`. -/
theorem cover (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN : grid0.N = 25 := N_0
  let t : Fin cfg0.N := ⟨(i 0).val / 2000, by show (i 0).val / 2000 < grid0.N; rw [hN]; omega⟩
  obtain ⟨-, -, -, -, -, -, -, -, -, -, e0, e1⟩ := block_index t
  have ht : t.val = (i 0).val / 2000 := rfl
  refine ⟨t, flush0_5 t, ?_⟩
  rw [mem_blk]
  intro a
  match a with
  | ⟨0, _⟩ => show win0_5.index t 0 * 2000 ≤ (i 0).val ∧ (i 0).val < win0_5.index t 0 * 2000 + 2000; rw [e0, ht]; omega
  | ⟨1, _⟩ => show win0_5.index t 1 * 64 ≤ (i 1).val ∧ (i 1).val < win0_5.index t 1 * 64 + 64; rw [e1]; omega

/-- THE OUTPUT ARRAY after the layer's run: the layer of the five arrays as the layer found them. -/
theorem output_eq (c : Dev nD) : (dat0 V c).arrAt 5 cfg0.N
    = layerOut (V c main_v27) (V c main_arg0) (V c main_arg2) (V c main_arg4) (V c main_v28) :=
  (dat0 V c).arrAt_eq_of_cover 5 _ (fun t _ => flushed_eq V c t) cover

end Cert.KernelIdeal.Layer0

end
-- ==== Proof.BridgeLayer0.lean ====
/-
  Layer 1 of the network: the tiled layer's whole-array function against the reference's operations.

  Both are, at row `r` and column `q`, the maximum with zero of a sum of three terms — the neighbourhood averages times their
  weights, the node features times theirs, and the bias — each product a plain sum over the contracted axis on the extended reals.
  The tiled layer adds them as (averages + features) + bias, the reference as (averages + bias) + features: addition of extended
  reals is commutative and associative (no distributivity and no cancelling is used, so no finiteness either).
-/
import proofs.«128528_j9612136808894_1_alg».proof.Proof.LayerArray0
import proofs.«128528_j9612136808894_1_alg».proof.Proof.Gen.ReferenceIdeal.Read

noncomputable section

namespace Cert.Bridge.Layer0

open Idealize.ShloMosaic Idealize.ShloMosaic.ValueIdx
open Cert.ReferenceIdeal Cert.ReferenceIdeal.Read

/-- If the tiled layer's averages are the reference's (`ha`), its features the reference's (`hx`) and its bias row the bias vector laid
    as a row (`hb`), its output array is the reference's layer output. -/
theorem layer_eq (x0 : (⟨S50000x3, .f32⟩ : BufTy).Contents (Elt Ideal)) (x1 : (⟨S2x1600000, .i32⟩ : BufTy).Contents (Elt Ideal)) (x2 : (⟨S3x64, .f32⟩ : BufTy).Contents (Elt Ideal)) (x3 : (⟨S64, .f32⟩ : BufTy).Contents (Elt Ideal)) (x4 : (⟨S3x64, .f32⟩ : BufTy).Contents (Elt Ideal))
    (a x : S50000x3.Idx → EReal) (b2 : S1x64.Idx → EReal)
    (ha : a = val_main_v27 (F := Ideal) x0 x1) (hx : x = x0)
    (hb : ∀ q : Fin 64, b2 (ix2 (0 : Fin 1) q) = x3 (ix1 q)) :
    Cert.KernelIdeal.Layer0.layerOut a x x2 x4 b2 = val_main_v34 (F := Ideal) x0 x1 x2 x3 x4 := by
  subst ha hx
  funext i
  have el : ∀ k : Fin 3, lidx_main_v28 i k = ix2 (⟨(i 0).val, (i 0).isLt⟩ : Fin 50000) k := fun k =>
    funext fun d => by match d with | ⟨0, _⟩ => rfl | ⟨1, _⟩ => rfl
  have er : ∀ k : Fin 3, ridx_main_v28 i k = ix2 k (⟨(i 1).val, (i 1).isLt⟩ : Fin 64) := fun k =>
    funext fun d => by match d with | ⟨0, _⟩ => rfl | ⟨1, _⟩ => rfl
  have el' : ∀ k : Fin 3, lidx_main_v32 i k = ix2 (⟨(i 0).val, (i 0).isLt⟩ : Fin 50000) k := fun k =>
    funext fun d => by match d with | ⟨0, _⟩ => rfl | ⟨1, _⟩ => rfl
  have er' : ∀ k : Fin 3, ridx_main_v32 i k = ix2 k (⟨(i 1).val, (i 1).isLt⟩ : Fin 64) := fun k =>
    funext fun d => by match d with | ⟨0, _⟩ => rfl | ⟨1, _⟩ => rfl
  have eb : idx_main_v29 (idx_main_v30 i) = ix1 (⟨(i 1).val, (i 1).isLt⟩ : Fin 64) :=
    funext fun d => by match d with | ⟨0, _⟩ => rfl
  rw [val_main_v34_apply, val_main_v33_apply, val_main_v31_apply, val_main_v28_apply, val_main_v30_apply, val_main_v29_apply, val_main_v32_apply,
    val_main_call0_v0_apply, val_main_call0_cst_apply]
  simp only [el, er, el', er', eb]
  unfold Cert.KernelIdeal.Layer0.layerOut Cert.KernelIdeal.Layer0.layerAt
  rw [hb]
  exact congrArg (fun s => max s (Ideal.ofBits .f32 0x00000000#32)) (add_right_comm _ _ _)

end Cert.Bridge.Layer0

end
-- ==== Proof.LayerTile1.lean ====
/-
  One graph-convolution layer's tile arithmetic, read entry by entry on the extended reals.

  A tile of the layer takes 2000 rows of the neighbourhood averages `a` and of the node features `x` (64 columns each), the
  two 64 × 128 weight matrices `w` (for the averages) and `wr` (for the features) and the bias row `b`, and stores
  `max (a·w + x·wr + b, 0)`. Entry (p, q) of that tile is therefore
  `max ((∑ₖ a(p,k)·w(k,q) + ∑ₖ x(p,k)·wr(k,q)) + b(0,q)) 0`: a change of float format is the identity on the extended reals, a
  matrix product into a zero accumulator is the plain sum over the contracted axis, and a row broadcast reads its one row.
-/
import proofs.«128528_j9612136808894_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer1

open Cert.KernelIdeal Cert.KernelIdeal.Gen Idealize.ShloMosaic Idealize.ShloMosaic.ValueIdx

/-- The product's left operand is read at the output's row … -/
theorem lhs_row (i : S2000x128.Idx) (s : dot_S2000x64_S64x128_S2000x128_1_0_0_1_n_n.contr.Idx) : (dot_S2000x64_S64x128_S2000x128_1_0_0_1_n_n.lhsIdx i s 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
/-- … and the contraction position; -/
theorem lhs_col (i : S2000x128.Idx) (s : dot_S2000x64_S64x128_S2000x128_1_0_0_1_n_n.contr.Idx) : (dot_S2000x64_S64x128_S2000x128_1_0_0_1_n_n.lhsIdx i s 1).val = (s ⟨0, by decide⟩).val :=
  dot_S2000x64_S64x128_S2000x128_1_0_0_1_n_n.lhsIdx_val_of_single rfl i s
/-- its right operand at the contraction position … -/
theorem rhs_row (i : S2000x128.Idx) (s : dot_S2000x64_S64x128_S2000x128_1_0_0_1_n_n.contr.Idx) : (dot_S2000x64_S64x128_S2000x128_1_0_0_1_n_n.rhsIdx i s 0).val = (s ⟨0, by decide⟩).val :=
  dot_S2000x64_S64x128_S2000x128_1_0_0_1_n_n.rhsIdx_val_of_single rfl i s
/-- … and the output's column. -/
theorem rhs_col (i : S2000x128.Idx) (s : dot_S2000x64_S64x128_S2000x128_1_0_0_1_n_n.contr.Idx) : (dot_S2000x64_S64x128_S2000x128_1_0_0_1_n_n.rhsIdx i s 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- A 2000 × 64 tile times a 64 × 128 matrix, accumulated from zero: entry (p, q) is `∑ₖ l(p,k)·r(k,q)`. -/
theorem tile_product_apply {φ₁ φ₂ : FTy} (l : FVec Ideal S2000x64 φ₁) (r : FVec Ideal S64x128 φ₂) (p : Fin 2000) (q : Fin 128) :
    matmul dot_S2000x64_S64x128_S2000x128_1_0_0_1_n_n none l r (constant S2000x128 .f32 0x00000000#32) (ix2 p q)
      = ∑ k : Fin 64, l (ix2 p k) * r (ix2 k q) := by
  simp only [matmul]
  rw [Ideal.matmul_constant_zero_apply, ← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have el : dot_S2000x64_S64x128_S2000x128_1_0_0_1_n_n.lhsIdx (ix2 p q) ((contrEquiv1 dot_S2000x64_S64x128_S2000x128_1_0_0_1_n_n 64 rfl rfl).symm k) = ix2 p k := funext fun a => Fin.ext (by
    match a with
    | ⟨0, _⟩ => exact lhs_row _ _
    | ⟨1, _⟩ => exact (lhs_col _ _).trans hk)
  have er : dot_S2000x64_S64x128_S2000x128_1_0_0_1_n_n.rhsIdx (ix2 p q) ((contrEquiv1 dot_S2000x64_S64x128_S2000x128_1_0_0_1_n_n 64 rfl rfl).symm k) = ix2 k q := funext fun a => Fin.ext (by
    match a with
    | ⟨0, _⟩ => exact (rhs_row _ _).trans hk
    | ⟨1, _⟩ => exact rhs_col _ _)
  rw [el, er]

/-- Entry (p, q) of the tile the layer stores. -/
theorem tile_apply (a x : Vec Ideal S2000x64 .f32) (w wr : Vec Ideal S64x128 .f32) (b : Vec Ideal S1x128 .f32) (p : Fin 2000) (q : Fin 128) :
    k1_pay1 (F := Ideal) a x w wr b (ix2 p q)
      = max ((∑ k : Fin 64, a (ix2 p k) * w (ix2 k q) + ∑ k : Fin 64, x (ix2 p k) * wr (ix2 k q)) + b (ix2 (0 : Fin 1) q))
          (Ideal.ofBits .f32 0x00000000#32) := by
  unfold k1_pay1
  rw [maximumf_apply, addf_apply, addf_apply, tile_product_apply, tile_product_apply, broadcastTo_1b_ab_apply]
  simp only [shapeCast_self, truncf_apply, broadcast_apply]
  rfl

end Cert.KernelIdeal.Layer1

end
-- ==== Proof.LayerArray1.lean ====
/-
  One graph-convolution layer as a whole-array function.

  The layer is run tile by tile over 25 row blocks of 2000 rows. Block `t` of the averages and of the features are rows
  `2000·t … 2000·t + 1999` of their arrays; the two weight matrices and the bias row are read whole at every block. So what block
  `t` writes back is rows `2000·t … 2000·t + 1999` of ONE function of the five arrays — at (r, q):
  `max ((∑ₖ a(r,k)·w(k,q) + ∑ₖ x(r,k)·wr(k,q)) + b(0,q)) 0` — and, the 25 blocks covering the 50000 rows, the layer's output
  array ends holding that function, whatever the five arrays held when the layer started.
-/
import proofs.«128528_j9612136808894_1_alg».proof.Proof.Gen.KernelIdeal.Frame
import proofs.«128528_j9612136808894_1_alg».proof.Proof.LayerTile1

set_option maxRecDepth 16384

noncomputable section

namespace Cert.KernelIdeal.Layer1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer at row `r` and column `q`, from the averages `a`, the features `x`, the weights `w`, `wr` and the bias row `b`. -/
def layerAt (a x : S50000x64.Idx → EReal) (w wr : S64x128.Idx → EReal) (b : S1x128.Idx → EReal) (r : Fin 50000) (q : Fin 128) : EReal :=
  max ((∑ k : Fin 64, a (ix2 r k) * w (ix2 k q) + ∑ k : Fin 64, x (ix2 r k) * wr (ix2 k q)) + b (ix2 (0 : Fin 1) q))
    (Ideal.ofBits .f32 0x00000000#32)

/-- The layer's output array. -/
def layerOut (a x : S50000x64.Idx → EReal) (w wr : S64x128.Idx → EReal) (b : S1x128.Idx → EReal) : S50000x128.Idx → EReal :=
  fun i => layerAt a x w wr b ⟨(i 0).val, (i 0).isLt⟩ ⟨(i 1).val, (i 1).isLt⟩

/-- Where each window's block sits at point `t`: the row-tiled ones at block row `t`, the whole ones at the origin. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the averages' block at point `t` is row `2000·t + p` of the array. -/
theorem blk_a (c : Dev nD) (t : Fin cfg1.N) (p : Fin 2000) (k : Fin 64) (r : Fin 50000) (hr : r.val = t.val * 2000 + p.val) :
    (iblk1 V c 0 t : Vec Ideal S2000x64 .f32) (ix2 p k) = (V c main_v42 : S50000x64.Idx → EReal) (ix2 r k) := by
  obtain ⟨e0, e1, -⟩ := block_index t
  unfold iblk1
  rw [View.read_apply]
  show V c main_v42 _ = V c main_v42 _
  refine congrArg (V c main_v42) (funext fun d => Fin.ext ?_)
  match d with
  | ⟨0, _⟩ => show win1_0.index t 0 * 2000 + 1 * p.val = r.val; rw [e0, hr]; omega
  | ⟨1, _⟩ => show win1_0.index t 1 * 64 + 1 * k.val = k.val; rw [e1]; omega

/-- Row `p` of the features' block at point `t` is row `2000·t + p` of the array. -/
theorem blk_x (c : Dev nD) (t : Fin cfg1.N) (p : Fin 2000) (k : Fin 64) (r : Fin 50000) (hr : r.val = t.val * 2000 + p.val) :
    (iblk1 V c 1 t : Vec Ideal S2000x64 .f32) (ix2 p k) = (V c main_v29 : S50000x64.Idx → EReal) (ix2 r k) := by
  obtain ⟨-, -, e0, e1, -⟩ := block_index t
  unfold iblk1
  rw [View.read_apply]
  show V c main_v29 _ = V c main_v29 _
  refine congrArg (V c main_v29) (funext fun d => Fin.ext ?_)
  match d with
  | ⟨0, _⟩ => show win1_1.index t 0 * 2000 + 1 * p.val = r.val; rw [e0, hr]; omega
  | ⟨1, _⟩ => show win1_1.index t 1 * 64 + 1 * k.val = k.val; rw [e1]; omega

/-- The averages' weights are read whole at every point. -/
theorem blk_w (c : Dev nD) (t : Fin cfg1.N) (k : Fin 64) (q : Fin 128) :
    (iblk1 V c 2 t : Vec Ideal S64x128 .f32) (ix2 k q) = (V c main_arg5 : S64x128.Idx → EReal) (ix2 k q) := by
  obtain ⟨-, -, -, -, e0, e1, -⟩ := block_index t
  unfold iblk1
  rw [View.read_apply]
  show V c main_arg5 _ = V c main_arg5 _
  refine congrArg (V c main_arg5) (funext fun d => Fin.ext ?_)
  match d with
  | ⟨0, _⟩ => show win1_2.index t 0 * 64 + 1 * k.val = k.val; rw [e0]; omega
  | ⟨1, _⟩ => show win1_2.index t 1 * 128 + 1 * q.val = q.val; rw [e1]; omega

/-- The bias row is read whole at every point. -/
theorem blk_b (c : Dev nD) (t : Fin cfg1.N) (q : Fin 128) :
    (iblk1 V c 3 t : Vec Ideal S1x128 .f32) (ix2 (0 : Fin 1) q) = (V c main_v43 : S1x128.Idx → EReal) (ix2 (0 : Fin 1) q) := by
  obtain ⟨-, -, -, -, -, -, e0, e1, -⟩ := block_index t
  unfold iblk1
  rw [View.read_apply]
  show V c main_v43 _ = V c main_v43 _
  refine congrArg (V c main_v43) (funext fun d => Fin.ext ?_)
  match d with
  | ⟨0, _⟩ => show win1_3.index t 0 * 1 + 1 * 0 = 0; rw [e0]
  | ⟨1, _⟩ => show win1_3.index t 1 * 128 + 1 * q.val = q.val; rw [e1]; omega

/-- The features' weights are read whole at every point. -/
theorem blk_wr (c : Dev nD) (t : Fin cfg1.N) (k : Fin 64) (q : Fin 128) :
    (iblk1 V c 4 t : Vec Ideal S64x128 .f32) (ix2 k q) = (V c main_arg7 : S64x128.Idx → EReal) (ix2 k q) := by
  obtain ⟨-, -, -, -, -, -, -, -, e0, e1, -⟩ := block_index t
  unfold iblk1
  rw [View.read_apply]
  show V c main_arg7 _ = V c main_arg7 _
  refine congrArg (V c main_arg7) (funext fun d => Fin.ext ?_)
  match d with
  | ⟨0, _⟩ => show win1_4.index t 0 * 64 + 1 * k.val = k.val; rw [e0]; omega
  | ⟨1, _⟩ => show win1_4.index t 1 * 128 + 1 * q.val = q.val; rw [e1]; omega

/-- Entry (p, q) of the tile stored at point `t` is the layer at row `2000·t + p` and column `q` of the five arrays. -/
theorem tile_eq (c : Dev nD) (t : Fin cfg1.N) (p : Fin 2000) (q : Fin 128) (r : Fin 50000) (hr : r.val = t.val * 2000 + p.val) :
    k1_pay1 (F := Ideal) (iblk1 V c 0 t) (iblk1 V c 1 t) (iblk1 V c 2 t) (iblk1 V c 4 t) (iblk1 V c 3 t) (ix2 p q)
      = layerAt (V c main_v42) (V c main_v29) (V c main_arg5) (V c main_arg7) (V c main_v43) r q := by
  refine (tile_apply (iblk1 V c 0 t) (iblk1 V c 1 t) (iblk1 V c 2 t) (iblk1 V c 4 t) (iblk1 V c 3 t) p q).trans ?_
  unfold layerAt
  simp only [blk_a V c t p _ r hr, blk_x V c t p _ r hr, blk_w V c t, blk_wr V c t, blk_b V c t]

/-- WHAT POINT `t` WRITES BACK is block `t` of the layer's output array. -/
theorem flushed_eq (c : Dev nD) (t : Fin cfg1.N) :
    (dat1 V c).flushed 5 t = ((cfg1.win 5).blk t).view.read (Elt Ideal)
      (layerOut (V c main_v42) (V c main_v29) (V c main_arg5) (V c main_arg7) (V c main_v43)) := by
  show (cfg1.win 5).cut (grid1.coords t) ((dat1 V c).after 5 t) = _
  rw [after1_5]
  unfold out1_5
  rw [View.canon_unit_zero hz]
  simp only [View.ld_unit_zero (S := S2000x64) hz, View.ld_unit_zero (S := S64x128) hz, View.ld_unit_zero (S := S1x128) hz]
  obtain ⟨-, -, -, -, -, -, -, -, -, -, e0, e1⟩ := block_index t
  funext y
  have hy : y = ix2 (⟨(y 0).val, (y 0).isLt⟩ : Fin 2000) (⟨(y 1).val, (y 1).isLt⟩ : Fin 128) :=
    funext fun d => by match d with | ⟨0, _⟩ => rfl | ⟨1, _⟩ => rfl
  have h0 : ((((cfg1.win 5).blk t).view.emb y) 0).val = t.val * 2000 + (y 0).val := by
    show win1_5.index t 0 * 2000 + 1 * (y 0).val = _; rw [e0]; omega
  have h1 : ((((cfg1.win 5).blk t).view.emb y) 1).val = (y 1).val := by
    show win1_5.index t 1 * 128 + 1 * (y 1).val = _; rw [e1]; omega
  show k1_pay1 (F := Ideal) (iblk1 V c 0 t) (iblk1 V c 1 t) (iblk1 V c 2 t) (iblk1 V c 4 t) (iblk1 V c 3 t) y
    = layerAt (V c main_v42) (V c main_v29) (V c main_arg5) (V c main_arg7) (V c main_v43)
        ⟨((((cfg1.win 5).blk t).view.emb y) 0).val, ((((cfg1.win 5).blk t).view.emb y) 0).isLt⟩
        ⟨((((cfg1.win 5).blk t).view.emb y) 1).val, ((((cfg1.win 5).blk t).view.emb y) 1).isLt⟩
  refine (congrArg (k1_pay1 (F := Ideal) (iblk1 V c 0 t) (iblk1 V c 1 t) (iblk1 V c 2 t) (iblk1 V c 4 t) (iblk1 V c 3 t)) hy).trans ?_
  refine (tile_eq V c t ⟨(y 0).val, (y 0).isLt⟩ ⟨(y 1).val, (y 1).isLt⟩ ⟨((((cfg1.win 5).blk t).view.emb y) 0).val, ((((cfg1.win 5).blk t).view.emb y) 0).isLt⟩ h0).trans ?_
  exact congrArg (layerAt (V c main_v42) (V c main_v29) (V c main_arg5) (V c main_arg7) (V c main_v43) _) (Fin.ext h1.symm)

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v44).slice (win1_5.rect t)).set ↔ _
  rw [View.set_slice_whole, Rect.mem_set_unit]
  exact Iff.rfl

/-- Row `r` of the output array lies in block `r / 2000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 25 := N_1
  let t : Fin cfg1.N := ⟨(i 0).val / 2000, by show (i 0).val / 2000 < grid1.N; rw [hN]; omega⟩
  obtain ⟨-, -, -, -, -, -, -, -, -, -, e0, e1⟩ := block_index t
  have ht : t.val = (i 0).val / 2000 := rfl
  refine ⟨t, flush1_5 t, ?_⟩
  rw [mem_blk]
  intro a
  match a with
  | ⟨0, _⟩ => show win1_5.index t 0 * 2000 ≤ (i 0).val ∧ (i 0).val < win1_5.index t 0 * 2000 + 2000; rw [e0, ht]; omega
  | ⟨1, _⟩ => show win1_5.index t 1 * 128 ≤ (i 1).val ∧ (i 1).val < win1_5.index t 1 * 128 + 128; rw [e1]; omega

/-- THE OUTPUT ARRAY after the layer's run: the layer of the five arrays as the layer found them. -/
theorem output_eq (c : Dev nD) : (dat1 V c).arrAt 5 cfg1.N
    = layerOut (V c main_v42) (V c main_v29) (V c main_arg5) (V c main_arg7) (V c main_v43) :=
  (dat1 V c).arrAt_eq_of_cover 5 _ (fun t _ => flushed_eq V c t) cover

end Cert.KernelIdeal.Layer1

end
-- ==== Proof.BridgeLayer1.lean ====
/-
  Layer 2 of the network: the tiled layer's whole-array function against the reference's operations.

  Both are, at row `r` and column `q`, the maximum with zero of a sum of three terms — the neighbourhood averages times their
  weights, the node features times theirs, and the bias — each product a plain sum over the contracted axis on the extended reals.
  The tiled layer adds them as (averages + features) + bias, the reference as (averages + bias) + features: addition of extended
  reals is commutative and associative (no distributivity and no cancelling is used, so no finiteness either).
-/
import proofs.«128528_j9612136808894_1_alg».proof.Proof.LayerArray1
import proofs.«128528_j9612136808894_1_alg».proof.Proof.Gen.ReferenceIdeal.Read

noncomputable section

namespace Cert.Bridge.Layer1

open Idealize.ShloMosaic Idealize.ShloMosaic.ValueIdx
open Cert.ReferenceIdeal Cert.ReferenceIdeal.Read

/-- If the tiled layer's averages are the reference's (`ha`), its features the reference's (`hx`) and its bias row the bias vector laid
    as a row (`hb`), its output array is the reference's layer output. -/
theorem layer_eq (x0 : (⟨S50000x3, .f32⟩ : BufTy).Contents (Elt Ideal)) (x1 : (⟨S2x1600000, .i32⟩ : BufTy).Contents (Elt Ideal)) (x2 : (⟨S3x64, .f32⟩ : BufTy).Contents (Elt Ideal)) (x3 : (⟨S64, .f32⟩ : BufTy).Contents (Elt Ideal)) (x4 : (⟨S3x64, .f32⟩ : BufTy).Contents (Elt Ideal)) (x5 : (⟨S64x128, .f32⟩ : BufTy).Contents (Elt Ideal)) (x6 : (⟨S128, .f32⟩ : BufTy).Contents (Elt Ideal)) (x7 : (⟨S64x128, .f32⟩ : BufTy).Contents (Elt Ideal))
    (a x : S50000x64.Idx → EReal) (b2 : S1x128.Idx → EReal)
    (ha : a = val_main_v58 (F := Ideal) x0 x1 x2 x3 x4) (hx : x = val_main_v34 (F := Ideal) x0 x1 x2 x3 x4)
    (hb : ∀ q : Fin 128, b2 (ix2 (0 : Fin 1) q) = x6 (ix1 q)) :
    Cert.KernelIdeal.Layer1.layerOut a x x5 x7 b2 = val_main_v65 (F := Ideal) x0 x1 x2 x3 x4 x5 x6 x7 := by
  subst ha hx
  funext i
  have el : ∀ k : Fin 64, lidx_main_v59 i k = ix2 (⟨(i 0).val, (i 0).isLt⟩ : Fin 50000) k := fun k =>
    funext fun d => by match d with | ⟨0, _⟩ => rfl | ⟨1, _⟩ => rfl
  have er : ∀ k : Fin 64, ridx_main_v59 i k = ix2 k (⟨(i 1).val, (i 1).isLt⟩ : Fin 128) := fun k =>
    funext fun d => by match d with | ⟨0, _⟩ => rfl | ⟨1, _⟩ => rfl
  have el' : ∀ k : Fin 64, lidx_main_v63 i k = ix2 (⟨(i 0).val, (i 0).isLt⟩ : Fin 50000) k := fun k =>
    funext fun d => by match d with | ⟨0, _⟩ => rfl | ⟨1, _⟩ => rfl
  have er' : ∀ k : Fin 64, ridx_main_v63 i k = ix2 k (⟨(i 1).val, (i 1).isLt⟩ : Fin 128) := fun k =>
    funext fun d => by match d with | ⟨0, _⟩ => rfl | ⟨1, _⟩ => rfl
  have eb : idx_main_v60 (idx_main_v61 i) = ix1 (⟨(i 1).val, (i 1).isLt⟩ : Fin 128) :=
    funext fun d => by match d with | ⟨0, _⟩ => rfl
  rw [val_main_v65_apply, val_main_v64_apply, val_main_v62_apply, val_main_v59_apply, val_main_v61_apply, val_main_v60_apply, val_main_v63_apply,
    val_main_call1_v0_apply, val_main_call1_cst_apply]
  simp only [el, er, el', er', eb]
  unfold Cert.KernelIdeal.Layer1.layerOut Cert.KernelIdeal.Layer1.layerAt
  rw [hb]
  exact congrArg (fun s => max s (Ideal.ofBits .f32 0x00000000#32)) (add_right_comm _ _ _)

end Cert.Bridge.Layer1

end
-- ==== Proof.LayerTile2.lean ====
/-
  One graph-convolution layer's tile arithmetic, read entry by entry on the extended reals.

  A tile of the layer takes 2000 rows of the neighbourhood averages `a` and of the node features `x` (128 columns each), the
  two 128 × 256 weight matrices `w` (for the averages) and `wr` (for the features) and the bias row `b`, and stores
  `max (a·w + x·wr + b, 0)`. Entry (p, q) of that tile is therefore
  `max ((∑ₖ a(p,k)·w(k,q) + ∑ₖ x(p,k)·wr(k,q)) + b(0,q)) 0`: a change of float format is the identity on the extended reals, a
  matrix product into a zero accumulator is the plain sum over the contracted axis, and a row broadcast reads its one row.
-/
import proofs.«128528_j9612136808894_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer2

open Cert.KernelIdeal Cert.KernelIdeal.Gen Idealize.ShloMosaic Idealize.ShloMosaic.ValueIdx

/-- The product's left operand is read at the output's row … -/
theorem lhs_row (i : S2000x256.Idx) (s : dot_S2000x128_S128x256_S2000x256_1_0_0_1_n_n.contr.Idx) : (dot_S2000x128_S128x256_S2000x256_1_0_0_1_n_n.lhsIdx i s 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- … and the contraction position; -/
theorem lhs_col (i : S2000x256.Idx) (s : dot_S2000x128_S128x256_S2000x256_1_0_0_1_n_n.contr.Idx) : (dot_S2000x128_S128x256_S2000x256_1_0_0_1_n_n.lhsIdx i s 1).val = (s ⟨0, by decide⟩).val :=
  dot_S2000x128_S128x256_S2000x256_1_0_0_1_n_n.lhsIdx_val_of_single rfl i s
/-- its right operand at the contraction position … -/
theorem rhs_row (i : S2000x256.Idx) (s : dot_S2000x128_S128x256_S2000x256_1_0_0_1_n_n.contr.Idx) : (dot_S2000x128_S128x256_S2000x256_1_0_0_1_n_n.rhsIdx i s 0).val = (s ⟨0, by decide⟩).val :=
  dot_S2000x128_S128x256_S2000x256_1_0_0_1_n_n.rhsIdx_val_of_single rfl i s
/-- … and the output's column. -/
theorem rhs_col (i : S2000x256.Idx) (s : dot_S2000x128_S128x256_S2000x256_1_0_0_1_n_n.contr.Idx) : (dot_S2000x128_S128x256_S2000x256_1_0_0_1_n_n.rhsIdx i s 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A 2000 × 128 tile times a 128 × 256 matrix, accumulated from zero: entry (p, q) is `∑ₖ l(p,k)·r(k,q)`. -/
theorem tile_product_apply {φ₁ φ₂ : FTy} (l : FVec Ideal S2000x128 φ₁) (r : FVec Ideal S128x256 φ₂) (p : Fin 2000) (q : Fin 256) :
    matmul dot_S2000x128_S128x256_S2000x256_1_0_0_1_n_n none l r (constant S2000x256 .f32 0x00000000#32) (ix2 p q)
      = ∑ k : Fin 128, l (ix2 p k) * r (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_row _ _).trans hk
    | ⟨1, _⟩ => exact rhs_col _ _)
  rw [el, er]

/-- Entry (p, q) of the tile the layer stores. -/
theorem tile_apply (a x : Vec Ideal S2000x128 .f32) (w wr : Vec Ideal S128x256 .f32) (b : Vec Ideal S1x256 .f32) (p : Fin 2000) (q : Fin 256) :
    k2_pay1 (F := Ideal) a x w wr b (ix2 p q)
      = max ((∑ k : Fin 128, a (ix2 p k) * w (ix2 k q) + ∑ k : Fin 128, x (ix2 p k) * wr (ix2 k q)) + b (ix2 (0 : Fin 1) q))
          (Ideal.ofBits .f32 0x00000000#32) := by
  unfold k2_pay1
  rw [maximumf_apply, addf_apply, addf_apply, tile_product_apply, tile_product_apply, broadcastTo_1b_ab_apply]
  simp only [shapeCast_self, truncf_apply, broadcast_apply]
  rfl

end Cert.KernelIdeal.Layer2

end
-- ==== Proof.LayerArray2.lean ====
/-
  One graph-convolution layer as a whole-array function.

  The layer is run tile by tile over 25 row blocks of 2000 rows. Block `t` of the averages and of the features are rows
  `2000·t … 2000·t + 1999` of their arrays; the two weight matrices and the bias row are read whole at every block. So what block
  `t` writes back is rows `2000·t … 2000·t + 1999` of ONE function of the five arrays — at (r, q):
  `max ((∑ₖ a(r,k)·w(k,q) + ∑ₖ x(r,k)·wr(k,q)) + b(0,q)) 0` — and, the 25 blocks covering the 50000 rows, the layer's output
  array ends holding that function, whatever the five arrays held when the layer started.
-/
import proofs.«128528_j9612136808894_1_alg».proof.Proof.Gen.KernelIdeal.Frame
import proofs.«128528_j9612136808894_1_alg».proof.Proof.LayerTile2

set_option maxRecDepth 16384

noncomputable section

namespace Cert.KernelIdeal.Layer2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer at row `r` and column `q`, from the averages `a`, the features `x`, the weights `w`, `wr` and the bias row `b`. -/
def layerAt (a x : S50000x128.Idx → EReal) (w wr : S128x256.Idx → EReal) (b : S1x256.Idx → EReal) (r : Fin 50000) (q : Fin 256) : EReal :=
  max ((∑ k : Fin 128, a (ix2 r k) * w (ix2 k q) + ∑ k : Fin 128, x (ix2 r k) * wr (ix2 k q)) + b (ix2 (0 : Fin 1) q))
    (Ideal.ofBits .f32 0x00000000#32)

/-- The layer's output array. -/
def layerOut (a x : S50000x128.Idx → EReal) (w wr : S128x256.Idx → EReal) (b : S1x256.Idx → EReal) : S50000x256.Idx → EReal :=
  fun i => layerAt a x w wr b ⟨(i 0).val, (i 0).isLt⟩ ⟨(i 1).val, (i 1).isLt⟩

/-- Where each window's block sits at point `t`: the row-tiled ones at block row `t`, the whole ones at the origin. -/
theorem block_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of the averages' block at point `t` is row `2000·t + p` of the array. -/
theorem blk_a (c : Dev nD) (t : Fin cfg2.N) (p : Fin 2000) (k : Fin 128) (r : Fin 50000) (hr : r.val = t.val * 2000 + p.val) :
    (iblk2 V c 0 t : Vec Ideal S2000x128 .f32) (ix2 p k) = (V c main_v57 : S50000x128.Idx → EReal) (ix2 r k) := by
  obtain ⟨e0, e1, -⟩ := block_index t
  unfold iblk2
  rw [View.read_apply]
  show V c main_v57 _ = V c main_v57 _
  refine congrArg (V c main_v57) (funext fun d => Fin.ext ?_)
  match d with
  | ⟨0, _⟩ => show win2_0.index t 0 * 2000 + 1 * p.val = r.val; rw [e0, hr]; omega
  | ⟨1, _⟩ => show win2_0.index t 1 * 128 + 1 * k.val = k.val; rw [e1]; omega

/-- Row `p` of the features' block at point `t` is row `2000·t + p` of the array. -/
theorem blk_x (c : Dev nD) (t : Fin cfg2.N) (p : Fin 2000) (k : Fin 128) (r : Fin 50000) (hr : r.val = t.val * 2000 + p.val) :
    (iblk2 V c 1 t : Vec Ideal S2000x128 .f32) (ix2 p k) = (V c main_v44 : S50000x128.Idx → EReal) (ix2 r k) := by
  obtain ⟨-, -, e0, e1, -⟩ := block_index t
  unfold iblk2
  rw [View.read_apply]
  show V c main_v44 _ = V c main_v44 _
  refine congrArg (V c main_v44) (funext fun d => Fin.ext ?_)
  match d with
  | ⟨0, _⟩ => show win2_1.index t 0 * 2000 + 1 * p.val = r.val; rw [e0, hr]; omega
  | ⟨1, _⟩ => show win2_1.index t 1 * 128 + 1 * k.val = k.val; rw [e1]; omega

/-- The averages' weights are read whole at every point. -/
theorem blk_w (c : Dev nD) (t : Fin cfg2.N) (k : Fin 128) (q : Fin 256) :
    (iblk2 V c 2 t : Vec Ideal S128x256 .f32) (ix2 k q) = (V c main_arg8 : S128x256.Idx → EReal) (ix2 k q) := by
  obtain ⟨-, -, -, -, e0, e1, -⟩ := block_index t
  unfold iblk2
  rw [View.read_apply]
  show V c main_arg8 _ = V c main_arg8 _
  refine congrArg (V c main_arg8) (funext fun d => Fin.ext ?_)
  match d with
  | ⟨0, _⟩ => show win2_2.index t 0 * 128 + 1 * k.val = k.val; rw [e0]; omega
  | ⟨1, _⟩ => show win2_2.index t 1 * 256 + 1 * q.val = q.val; rw [e1]; omega

/-- The bias row is read whole at every point. -/
theorem blk_b (c : Dev nD) (t : Fin cfg2.N) (q : Fin 256) :
    (iblk2 V c 3 t : Vec Ideal S1x256 .f32) (ix2 (0 : Fin 1) q) = (V c main_v58 : S1x256.Idx → EReal) (ix2 (0 : Fin 1) q) := by
  obtain ⟨-, -, -, -, -, -, e0, e1, -⟩ := block_index t
  unfold iblk2
  rw [View.read_apply]
  show V c main_v58 _ = V c main_v58 _
  refine congrArg (V c main_v58) (funext fun d => Fin.ext ?_)
  match d with
  | ⟨0, _⟩ => show win2_3.index t 0 * 1 + 1 * 0 = 0; rw [e0]
  | ⟨1, _⟩ => show win2_3.index t 1 * 256 + 1 * q.val = q.val; rw [e1]; omega

/-- The features' weights are read whole at every point. -/
theorem blk_wr (c : Dev nD) (t : Fin cfg2.N) (k : Fin 128) (q : Fin 256) :
    (iblk2 V c 4 t : Vec Ideal S128x256 .f32) (ix2 k q) = (V c main_arg10 : S128x256.Idx → EReal) (ix2 k q) := by
  obtain ⟨-, -, -, -, -, -, -, -, e0, e1, -⟩ := block_index t
  unfold iblk2
  rw [View.read_apply]
  show V c main_arg10 _ = V c main_arg10 _
  refine congrArg (V c main_arg10) (funext fun d => Fin.ext ?_)
  match d with
  | ⟨0, _⟩ => show win2_4.index t 0 * 128 + 1 * k.val = k.val; rw [e0]; omega
  | ⟨1, _⟩ => show win2_4.index t 1 * 256 + 1 * q.val = q.val; rw [e1]; omega

/-- Entry (p, q) of the tile stored at point `t` is the layer at row `2000·t + p` and column `q` of the five arrays. -/
theorem tile_eq (c : Dev nD) (t : Fin cfg2.N) (p : Fin 2000) (q : Fin 256) (r : Fin 50000) (hr : r.val = t.val * 2000 + p.val) :
    k2_pay1 (F := Ideal) (iblk2 V c 0 t) (iblk2 V c 1 t) (iblk2 V c 2 t) (iblk2 V c 4 t) (iblk2 V c 3 t) (ix2 p q)
      = layerAt (V c main_v57) (V c main_v44) (V c main_arg8) (V c main_arg10) (V c main_v58) r q := by
  refine (tile_apply (iblk2 V c 0 t) (iblk2 V c 1 t) (iblk2 V c 2 t) (iblk2 V c 4 t) (iblk2 V c 3 t) p q).trans ?_
  unfold layerAt
  simp only [blk_a V c t p _ r hr, blk_x V c t p _ r hr, blk_w V c t, blk_wr V c t, blk_b V c t]

/-- WHAT POINT `t` WRITES BACK is block `t` of the layer's output array. -/
theorem flushed_eq (c : Dev nD) (t : Fin cfg2.N) :
    (dat2 V c).flushed 5 t = ((cfg2.win 5).blk t).view.read (Elt Ideal)
      (layerOut (V c main_v57) (V c main_v44) (V c main_arg8) (V c main_arg10) (V c main_v58)) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x256) hz, View.ld_unit_zero (S := S1x256) hz]
  obtain ⟨-, -, -, -, -, -, -, -, -, -, e0, e1⟩ := block_index t
  funext y
  have hy : y = ix2 (⟨(y 0).val, (y 0).isLt⟩ : Fin 2000) (⟨(y 1).val, (y 1).isLt⟩ : Fin 256) :=
    funext fun d => by match d with | ⟨0, _⟩ => rfl | ⟨1, _⟩ => rfl
  have h0 : ((((cfg2.win 5).blk t).view.emb y) 0).val = t.val * 2000 + (y 0).val := by
    show win2_5.index t 0 * 2000 + 1 * (y 0).val = _; rw [e0]; omega
  have h1 : ((((cfg2.win 5).blk t).view.emb y) 1).val = (y 1).val := by
    show win2_5.index t 1 * 256 + 1 * (y 1).val = _; rw [e1]; omega
  show k2_pay1 (F := Ideal) (iblk2 V c 0 t) (iblk2 V c 1 t) (iblk2 V c 2 t) (iblk2 V c 4 t) (iblk2 V c 3 t) y
    = layerAt (V c main_v57) (V c main_v44) (V c main_arg8) (V c main_arg10) (V c main_v58)
        ⟨((((cfg2.win 5).blk t).view.emb y) 0).val, ((((cfg2.win 5).blk t).view.emb y) 0).isLt⟩
        ⟨((((cfg2.win 5).blk t).view.emb y) 1).val, ((((cfg2.win 5).blk t).view.emb y) 1).isLt⟩
  refine (congrArg (k2_pay1 (F := Ideal) (iblk2 V c 0 t) (iblk2 V c 1 t) (iblk2 V c 2 t) (iblk2 V c 4 t) (iblk2 V c 3 t)) hy).trans ?_
  refine (tile_eq V c t ⟨(y 0).val, (y 0).isLt⟩ ⟨(y 1).val, (y 1).isLt⟩ ⟨((((cfg2.win 5).blk t).view.emb y) 0).val, ((((cfg2.win 5).blk t).view.emb y) 0).isLt⟩ h0).trans ?_
  exact congrArg (layerAt (V c main_v57) (V c main_v44) (V c main_arg8) (V c main_arg10) (V c main_v58) _) (Fin.ext h1.symm)

/-- An index of the output array is in point `t`'s block iff each coordinate is in the block's range on its axis. -/
theorem mem_blk (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v59).slice (win2_5.rect t)).set ↔ _
  rw [View.set_slice_whole, Rect.mem_set_unit]
  exact Iff.rfl

/-- Row `r` of the output array lies in block `r / 2000`. -/
theorem cover (i : S50000x256.Idx) : ∃ t : Fin cfg2.N, (cfg2.win 5).flush t = true ∧ i ∈ ((cfg2.win 5).blk t).view.set := by
  have hi0 : (i 0).val < 50000 := (i 0).isLt
  have hi1 : (i 1).val < 256 := (i 1).isLt
  have hN : grid2.N = 25 := N_2
  let t : Fin cfg2.N := ⟨(i 0).val / 2000, by show (i 0).val / 2000 < grid2.N; rw [hN]; omega⟩
  obtain ⟨-, -, -, -, -, -, -, -, -, -, e0, e1⟩ := block_index t
  have ht : t.val = (i 0).val / 2000 := rfl
  refine ⟨t, flush2_5 t, ?_⟩
  rw [mem_blk]
  intro a
  match a with
  | ⟨0, _⟩ => show win2_5.index t 0 * 2000 ≤ (i 0).val ∧ (i 0).val < win2_5.index t 0 * 2000 + 2000; rw [e0, ht]; omega
  | ⟨1, _⟩ => show win2_5.index t 1 * 256 ≤ (i 1).val ∧ (i 1).val < win2_5.index t 1 * 256 + 256; rw [e1]; omega

/-- THE OUTPUT ARRAY after the layer's run: the layer of the five arrays as the layer found them. -/
theorem output_eq (c : Dev nD) : (dat2 V c).arrAt 5 cfg2.N
    = layerOut (V c main_v57) (V c main_v44) (V c main_arg8) (V c main_arg10) (V c main_v58) :=
  (dat2 V c).arrAt_eq_of_cover 5 _ (fun t _ => flushed_eq V c t) cover

end Cert.KernelIdeal.Layer2

end
-- ==== Proof.BridgeLayer2.lean ====
/-
  Layer 3 of the network: the tiled layer's whole-array function against the reference's operations.

  Both are, at row `r` and column `q`, the maximum with zero of a sum of three terms — the neighbourhood averages times their
  weights, the node features times theirs, and the bias — each product a plain sum over the contracted axis on the extended reals.
  The tiled layer adds them as (averages + features) + bias, the reference as (averages + bias) + features: addition of extended
  reals is commutative and associative (no distributivity and no cancelling is used, so no finiteness either).
-/
import proofs.«128528_j9612136808894_1_alg».proof.Proof.LayerArray2
import proofs.«128528_j9612136808894_1_alg».proof.Proof.Gen.ReferenceIdeal.Read

noncomputable section

namespace Cert.Bridge.Layer2

open Idealize.ShloMosaic Idealize.ShloMosaic.ValueIdx
open Cert.ReferenceIdeal Cert.ReferenceIdeal.Read

/-- If the tiled layer's averages are the reference's (`ha`), its features the reference's (`hx`) and its bias row the bias vector laid
    as a row (`hb`), its output array is the reference's layer output. -/
theorem layer_eq (x0 : (⟨S50000x3, .f32⟩ : BufTy).Contents (Elt Ideal)) (x1 : (⟨S2x1600000, .i32⟩ : BufTy).Contents (Elt Ideal)) (x2 : (⟨S3x64, .f32⟩ : BufTy).Contents (Elt Ideal)) (x3 : (⟨S64, .f32⟩ : BufTy).Contents (Elt Ideal)) (x4 : (⟨S3x64, .f32⟩ : BufTy).Contents (Elt Ideal)) (x5 : (⟨S64x128, .f32⟩ : BufTy).Contents (Elt Ideal)) (x6 : (⟨S128, .f32⟩ : BufTy).Contents (Elt Ideal)) (x7 : (⟨S64x128, .f32⟩ : BufTy).Contents (Elt Ideal)) (x8 : (⟨S128x256, .f32⟩ : BufTy).Contents (Elt Ideal)) (x9 : (⟨S256, .f32⟩ : BufTy).Contents (Elt Ideal)) (x10 : (⟨S128x256, .f32⟩ : BufTy).Contents (Elt Ideal))
    (a x : S50000x128.Idx → EReal) (b2 : S1x256.Idx → EReal)
    (ha : a = val_main_v89 (F := Ideal) x0 x1 x2 x3 x4 x5 x6 x7) (hx : x = val_main_v65 (F := Ideal) x0 x1 x2 x3 x4 x5 x6 x7)
    (hb : ∀ q : Fin 256, b2 (ix2 (0 : Fin 1) q) = x9 (ix1 q)) :
    Cert.KernelIdeal.Layer2.layerOut a x x8 x10 b2 = val_main_v96 (F := Ideal) x0 x1 x2 x3 x4 x5 x6 x7 x8 x9 x10 := by
  subst ha hx
  funext i
  have el : ∀ k : Fin 128, lidx_main_v90 i k = ix2 (⟨(i 0).val, (i 0).isLt⟩ : Fin 50000) k := fun k =>
    funext fun d => by match d with | ⟨0, _⟩ => rfl | ⟨1, _⟩ => rfl
  have er : ∀ k : Fin 128, ridx_main_v90 i k = ix2 k (⟨(i 1).val, (i 1).isLt⟩ : Fin 256) := fun k =>
    funext fun d => by match d with | ⟨0, _⟩ => rfl | ⟨1, _⟩ => rfl
  have el' : ∀ k : Fin 128, lidx_main_v94 i k = ix2 (⟨(i 0).val, (i 0).isLt⟩ : Fin 50000) k := fun k =>
    funext fun d => by match d with | ⟨0, _⟩ => rfl | ⟨1, _⟩ => rfl
  have er' : ∀ k : Fin 128, ridx_main_v94 i k = ix2 k (⟨(i 1).val, (i 1).isLt⟩ : Fin 256) := fun k =>
    funext fun d => by match d with | ⟨0, _⟩ => rfl | ⟨1, _⟩ => rfl
  have eb : idx_main_v91 (idx_main_v92 i) = ix1 (⟨(i 1).val, (i 1).isLt⟩ : Fin 256) :=
    funext fun d => by match d with | ⟨0, _⟩ => rfl
  rw [val_main_v96_apply, val_main_v95_apply, val_main_v93_apply, val_main_v90_apply, val_main_v92_apply, val_main_v91_apply, val_main_v94_apply,
    val_main_call2_v0_apply, val_main_call2_cst_apply]
  simp only [el, er, el', er', eb]
  unfold Cert.KernelIdeal.Layer2.layerOut Cert.KernelIdeal.Layer2.layerAt
  rw [hb]
  exact congrArg (fun s => max s (Ideal.ofBits .f32 0x00000000#32)) (add_right_comm _ _ _)

end Cert.Bridge.Layer2

end
-- ==== Proof.LayerTile3.lean ====
/-
  The output head's tile arithmetic, read entry by entry on the extended reals.

  A tile of the head takes 2000 rows of the last layer's features `h` (256 columns), the 256 × 6 weight matrix `w` and the bias
  row `b`, and stores the logistic function of `h·w + b`. Entry (p, q) of that tile is the logistic function of
  `∑ₖ h(p,k)·w(k,q) + b(0,q)`: a change of float format is the identity on the extended reals, a matrix product into a zero
  accumulator is the plain sum over the contracted axis, and a row broadcast reads its one row.
-/
import proofs.«128528_j9612136808894_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer3

open Cert.KernelIdeal Cert.KernelIdeal.Gen Idealize.ShloMosaic Idealize.ShloMosaic.ValueIdx

/-- The product's left operand is read at the output's row … -/
theorem lhs_row (i : S2000x6.Idx) (s : dot_S2000x256_S256x6_S2000x6_1_0_0_1_n_n.contr.Idx) : (dot_S2000x256_S256x6_S2000x6_1_0_0_1_n_n.lhsIdx i s 0).val = (i 0).val := by
  unfold DotDims.lhsIdx
  rw [dif_neg (show ¬(0 : Fin S2000x256.rank) ∈ dot_S2000x256_S256x6_S2000x6_1_0_0_1_n_n.lhsBatch by decide), dif_pos (show (0 : Fin S2000x256.rank) ∈ dot_S2000x256_S256x6_S2000x6_1_0_0_1_n_n.lhsNonContracting by decide)]
  rfl
/-- … and the contraction position; -/
theorem lhs_col (i : S2000x6.Idx) (s : dot_S2000x256_S256x6_S2000x6_1_0_0_1_n_n.contr.Idx) : (dot_S2000x256_S256x6_S2000x6_1_0_0_1_n_n.lhsIdx i s 1).val = (s ⟨0, by decide⟩).val :=
  dot_S2000x256_S256x6_S2000x6_1_0_0_1_n_n.lhsIdx_val_of_single rfl i s
/-- its right operand at the contraction position … -/
theorem rhs_row (i : S2000x6.Idx) (s : dot_S2000x256_S256x6_S2000x6_1_0_0_1_n_n.contr.Idx) : (dot_S2000x256_S256x6_S2000x6_1_0_0_1_n_n.rhsIdx i s 0).val = (s ⟨0, by decide⟩).val :=
  dot_S2000x256_S256x6_S2000x6_1_0_0_1_n_n.rhsIdx_val_of_single rfl i s
/-- … and the output's column. -/
theorem rhs_col (i : S2000x6.Idx) (s : dot_S2000x256_S256x6_S2000x6_1_0_0_1_n_n.contr.Idx) : (dot_S2000x256_S256x6_S2000x6_1_0_0_1_n_n.rhsIdx i s 1).val = (i 1).val := by
  unfold DotDims.rhsIdx
  rw [dif_neg (show ¬(1 : Fin S256x6.rank) ∈ dot_S2000x256_S256x6_S2000x6_1_0_0_1_n_n.rhsBatch by decide), dif_pos (show (1 : Fin S256x6.rank) ∈ dot_S2000x256_S256x6_S2000x6_1_0_0_1_n_n.rhsNonContracting by decide)]
  rfl

/-- A 2000 × 256 tile times a 256 × 6 matrix, accumulated from zero: entry (p, q) is `∑ₖ l(p,k)·r(k,q)`. -/
theorem tile_product_apply {φ₁ φ₂ : FTy} (l : FVec Ideal S2000x256 φ₁) (r : FVec Ideal S256x6 φ₂) (p : Fin 2000) (q : Fin 6) :
    matmul dot_S2000x256_S256x6_S2000x6_1_0_0_1_n_n none l r (constant S2000x6 .f32 0x00000000#32) (ix2 p q)
      = ∑ k : Fin 256, l (ix2 p k) * r (ix2 k q) := by
  simp only [matmul]
  rw [Ideal.matmul_constant_zero_apply, ← Equiv.sum_comp (contrEquiv1 dot_S2000x256_S256x6_S2000x6_1_0_0_1_n_n 256 rfl rfl).symm]
  refine Finset.sum_congr rfl fun k _ => ?_
  have hk := contrEquiv1_symm_val dot_S2000x256_S256x6_S2000x6_1_0_0_1_n_n 256 rfl rfl k
  have el : dot_S2000x256_S256x6_S2000x6_1_0_0_1_n_n.lhsIdx (ix2 p q) ((contrEquiv1 dot_S2000x256_S256x6_S2000x6_1_0_0_1_n_n 256 rfl rfl).symm k) = ix2 p k := funext fun a => Fin.ext (by
    match a with
    | ⟨0, _⟩ => exact lhs_row _ _
    | ⟨1, _⟩ => exact (lhs_col _ _).trans hk)
  have er : dot_S2000x256_S256x6_S2000x6_1_0_0_1_n_n.rhsIdx (ix2 p q) ((contrEquiv1 dot_S2000x256_S256x6_S2000x6_1_0_0_1_n_n 256 rfl rfl).symm k) = ix2 k q := funext fun a => Fin.ext (by
    match a with
    | ⟨0, _⟩ => exact (rhs_row _ _).trans hk
    | ⟨1, _⟩ => exact rhs_col _ _)
  rw [el, er]

/-- Entry (p, q) of the tile the head stores. -/
theorem tile_apply (h : Vec Ideal S2000x256 .f32) (w : Vec Ideal S256x6 .f32) (b : Vec Ideal S1x6 .f32) (p : Fin 2000) (q : Fin 6) :
    k3_pay1 (F := Ideal) h w b (ix2 p q)
      = Ideal.logistic (∑ k : Fin 256, h (ix2 p k) * w (ix2 k q) + b (ix2 (0 : Fin 1) q)) := by
  unfold k3_pay1
  show FloatOps.logistic (F := Ideal) _ = _
  rw [Ideal.logistic_def, addf_apply, tile_product_apply, broadcastTo_1b_ab_apply]
  simp only [shapeCast_self, truncf_apply]

end Cert.KernelIdeal.Layer3

end
-- ==== Proof.LayerArray3.lean ====
/-
  The output head as a whole-array function.

  The head is run tile by tile over 25 row blocks of 2000 rows. Block `t` of the features is rows `2000·t … 2000·t + 1999` of
  their array; the weight matrix and the bias row are read whole at every block. So what block `t` writes back is rows
  `2000·t … 2000·t + 1999` of ONE function of the three arrays — at (r, q) the logistic function of `∑ₖ h(r,k)·w(k,q) + b(0,q)` —
  and, the 25 blocks covering the 50000 rows, the result array ends holding that function.
-/
import proofs.«128528_j9612136808894_1_alg».proof.Proof.Gen.KernelIdeal.Frame
import proofs.«128528_j9612136808894_1_alg».proof.Proof.LayerTile3

set_option maxRecDepth 16384

noncomputable section

namespace Cert.KernelIdeal.Layer3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The head at row `r` and column `q`, from the features `h`, the weights `w` and the bias row `b`. -/
def headAt (h : S50000x256.Idx → EReal) (w : S256x6.Idx → EReal) (b : S1x6.Idx → EReal) (r : Fin 50000) (q : Fin 6) : EReal :=
  Ideal.logistic (∑ k : Fin 256, h (ix2 r k) * w (ix2 k q) + b (ix2 (0 : Fin 1) q))

/-- The head's output array. -/
def headOut (h : S50000x256.Idx → EReal) (w : S256x6.Idx → EReal) (b : S1x6.Idx → EReal) : S50000x6.Idx → EReal :=
  fun i => headAt h w b ⟨(i 0).val, (i 0).isLt⟩ ⟨(i 1).val, (i 1).isLt⟩

/-- Where each window's block sits at point `t`: the row-tiled ones at block row `t`, the whole ones at the origin. -/
theorem block_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of the features' block at point `t` is row `2000·t + p` of the array. -/
theorem blk_h (c : Dev nD) (t : Fin cfg3.N) (p : Fin 2000) (k : Fin 256) (r : Fin 50000) (hr : r.val = t.val * 2000 + p.val) :
    (iblk3 V c 0 t : Vec Ideal S2000x256 .f32) (ix2 p k) = (V c main_v59 : S50000x256.Idx → EReal) (ix2 r k) := by
  obtain ⟨e0, e1, -⟩ := block_index t
  unfold iblk3
  rw [View.read_apply]
  show V c main_v59 _ = V c main_v59 _
  refine congrArg (V c main_v59) (funext fun d => Fin.ext ?_)
  match d with
  | ⟨0, _⟩ => show win3_0.index t 0 * 2000 + 1 * p.val = r.val; rw [e0, hr]; omega
  | ⟨1, _⟩ => show win3_0.index t 1 * 256 + 1 * k.val = k.val; rw [e1]; omega

/-- The weights are read whole at every point. -/
theorem blk_w (c : Dev nD) (t : Fin cfg3.N) (k : Fin 256) (q : Fin 6) :
    (iblk3 V c 1 t : Vec Ideal S256x6 .f32) (ix2 k q) = (V c main_arg11 : S256x6.Idx → EReal) (ix2 k q) := by
  obtain ⟨-, -, e0, e1, -⟩ := block_index t
  unfold iblk3
  rw [View.read_apply]
  show V c main_arg11 _ = V c main_arg11 _
  refine congrArg (V c main_arg11) (funext fun d => Fin.ext ?_)
  match d with
  | ⟨0, _⟩ => show win3_1.index t 0 * 256 + 1 * k.val = k.val; rw [e0]; omega
  | ⟨1, _⟩ => show win3_1.index t 1 * 6 + 1 * q.val = q.val; rw [e1]; omega

/-- The bias row is read whole at every point. -/
theorem blk_b (c : Dev nD) (t : Fin cfg3.N) (q : Fin 6) :
    (iblk3 V c 2 t : Vec Ideal S1x6 .f32) (ix2 (0 : Fin 1) q) = (V c main_v60 : S1x6.Idx → EReal) (ix2 (0 : Fin 1) q) := by
  obtain ⟨-, -, -, -, e0, e1, -⟩ := block_index t
  unfold iblk3
  rw [View.read_apply]
  show V c main_v60 _ = V c main_v60 _
  refine congrArg (V c main_v60) (funext fun d => Fin.ext ?_)
  match d with
  | ⟨0, _⟩ => show win3_2.index t 0 * 1 + 1 * 0 = 0; rw [e0]
  | ⟨1, _⟩ => show win3_2.index t 1 * 6 + 1 * q.val = q.val; rw [e1]; omega

/-- Entry (p, q) of the tile stored at point `t` is the head at row `2000·t + p` and column `q` of the three arrays. -/
theorem tile_eq (c : Dev nD) (t : Fin cfg3.N) (p : Fin 2000) (q : Fin 6) (r : Fin 50000) (hr : r.val = t.val * 2000 + p.val) :
    k3_pay1 (F := Ideal) (iblk3 V c 0 t) (iblk3 V c 1 t) (iblk3 V c 2 t) (ix2 p q)
      = headAt (V c main_v59) (V c main_arg11) (V c main_v60) r q := by
  refine (tile_apply (iblk3 V c 0 t) (iblk3 V c 1 t) (iblk3 V c 2 t) p q).trans ?_
  unfold headAt
  simp only [blk_h V c t p _ r hr, blk_w V c t, blk_b V c t]

/-- WHAT POINT `t` WRITES BACK is block `t` of the head's output array. -/
theorem flushed_eq (c : Dev nD) (t : Fin cfg3.N) :
    (dat3 V c).flushed 3 t = ((cfg3.win 3).blk t).view.read (Elt Ideal)
      (headOut (V c main_v59) (V c main_arg11) (V c main_v60)) := by
  show (cfg3.win 3).cut (grid3.coords t) ((dat3 V c).after 3 t) = _
  rw [after3_3]
  unfold out3_3
  rw [View.canon_unit_zero hz]
  simp only [View.ld_unit_zero (S := S2000x256) hz, View.ld_unit_zero (S := S256x6) hz, View.ld_unit_zero (S := S1x6) hz]
  obtain ⟨-, -, -, -, -, -, e0, e1⟩ := block_index t
  funext y
  have hy : y = ix2 (⟨(y 0).val, (y 0).isLt⟩ : Fin 2000) (⟨(y 1).val, (y 1).isLt⟩ : Fin 6) :=
    funext fun d => by match d with | ⟨0, _⟩ => rfl | ⟨1, _⟩ => rfl
  have h0 : ((((cfg3.win 3).blk t).view.emb y) 0).val = t.val * 2000 + (y 0).val := by
    show win3_3.index t 0 * 2000 + 1 * (y 0).val = _; rw [e0]; omega
  have h1 : ((((cfg3.win 3).blk t).view.emb y) 1).val = (y 1).val := by
    show win3_3.index t 1 * 6 + 1 * (y 1).val = _; rw [e1]; omega
  show k3_pay1 (F := Ideal) (iblk3 V c 0 t) (iblk3 V c 1 t) (iblk3 V c 2 t) y
    = headAt (V c main_v59) (V c main_arg11) (V c main_v60)
        ⟨((((cfg3.win 3).blk t).view.emb y) 0).val, ((((cfg3.win 3).blk t).view.emb y) 0).isLt⟩
        ⟨((((cfg3.win 3).blk t).view.emb y) 1).val, ((((cfg3.win 3).blk t).view.emb y) 1).isLt⟩
  refine (congrArg (k3_pay1 (F := Ideal) (iblk3 V c 0 t) (iblk3 V c 1 t) (iblk3 V c 2 t)) hy).trans ?_
  refine (tile_eq V c t ⟨(y 0).val, (y 0).isLt⟩ ⟨(y 1).val, (y 1).isLt⟩ ⟨((((cfg3.win 3).blk t).view.emb y) 0).val, ((((cfg3.win 3).blk t).view.emb y) 0).isLt⟩ h0).trans ?_
  exact congrArg (headAt (V c main_v59) (V c main_arg11) (V c main_v60) _) (Fin.ext h1.symm)

/-- An index of the result array is in point `t`'s block iff each coordinate is in the block's range on its axis. -/
theorem mem_blk (t : Fin cfg3.N) (i : S50000x6.Idx) :
    i ∈ ((cfg3.win 3).blk t).view.set ↔ ∀ a : Fin 2, win3_3.index t a * S2000x6.size a ≤ (i a).val ∧ (i a).val < win3_3.index t a * S2000x6.size a + S2000x6.size a := by
  show i ∈ ((View.whole main_v61).slice (win3_3.rect t)).set ↔ _
  rw [View.set_slice_whole, Rect.mem_set_unit]
  exact Iff.rfl

/-- Row `r` of the result array lies in block `r / 2000`. -/
theorem cover (i : S50000x6.Idx) : ∃ t : Fin cfg3.N, (cfg3.win 3).flush t = true ∧ i ∈ ((cfg3.win 3).blk t).view.set := by
  have hi0 : (i 0).val < 50000 := (i 0).isLt
  have hi1 : (i 1).val < 6 := (i 1).isLt
  have hN : grid3.N = 25 := N_3
  let t : Fin cfg3.N := ⟨(i 0).val / 2000, by show (i 0).val / 2000 < grid3.N; rw [hN]; omega⟩
  obtain ⟨-, -, -, -, -, -, e0, e1⟩ := block_index t
  have ht : t.val = (i 0).val / 2000 := rfl
  refine ⟨t, flush3_3 t, ?_⟩
  rw [mem_blk]
  intro a
  match a with
  | ⟨0, _⟩ => show win3_3.index t 0 * 2000 ≤ (i 0).val ∧ (i 0).val < win3_3.index t 0 * 2000 + 2000; rw [e0, ht]; omega
  | ⟨1, _⟩ => show win3_3.index t 1 * 6 ≤ (i 1).val ∧ (i 1).val < win3_3.index t 1 * 6 + 6; rw [e1]; omega

/-- THE RESULT ARRAY after the head's run: the head of the three arrays as the head found them. -/
theorem output_eq (c : Dev nD) : (dat3 V c).arrAt 3 cfg3.N
    = headOut (V c main_v59) (V c main_arg11) (V c main_v60) :=
  (dat3 V c).arrAt_eq_of_cover 3 _ (fun t _ => flushed_eq V c t) cover

end Cert.KernelIdeal.Layer3

end
-- ==== Proof.BridgeHead.lean ====
/-
  The output head: the tiled head's whole-array function against the reference's operations.

  Both are, at row `r` and column `q`, the logistic function of `∑ₖ h(r,k)·w(k,q) + b(q)`. The tiled head applies the logistic function
  as one operation; the reference spells it `1 / (1 + exp (−s))` with its own division, exponential and negation. On the extended
  reals these are one function by definition (the float pattern of `1.0` denotes the number 1).
-/
import proofs.«128528_j9612136808894_1_alg».proof.Proof.LayerArray3
import proofs.«128528_j9612136808894_1_alg».proof.Proof.Gen.ReferenceIdeal.Read

noncomputable section

namespace Cert.Bridge.Layer3

open Idealize.ShloMosaic Idealize.ShloMosaic.ValueIdx
open Cert.ReferenceIdeal Cert.ReferenceIdeal.Read

/-- The single-precision pattern of `1.0` denotes the number 1. -/
theorem one_f32 : Ideal.ofBits .f32 0x3F800000#32 = 1 := by
  simp [Ideal.ofBits, Ideal.ieee, -EReal.coe_mul]; norm_num

/-- The logistic function is the reference's spelling of it: one over one plus the exponential of the negated argument. -/
theorem logistic_spelt (s : EReal) :
    Ideal.logistic s = FloatOps.hostDivf (F := Ideal) (φ := .f32) (FloatOps.ofBits .f32 0x3F800000#32)
      (FloatOps.addf (FloatOps.ofBits .f32 0x3F800000#32) (FloatOps.hostUnary .exp (FloatOps.hostNegf s))) := by
  show Ideal.logistic s = Ideal.div (Ideal.ofBits .f32 0x3F800000#32) (Ideal.ofBits .f32 0x3F800000#32 + Ideal.exp (-s))
  rw [one_f32]
  rfl

/-- If the tiled head's features are the reference's last layer (`hh`) and its bias row the bias vector laid as a row (`hb`), its
    output array is the reference's result. -/
theorem head_eq (x0 : (⟨S50000x3, .f32⟩ : BufTy).Contents (Elt Ideal)) (x1 : (⟨S2x1600000, .i32⟩ : BufTy).Contents (Elt Ideal)) (x2 : (⟨S3x64, .f32⟩ : BufTy).Contents (Elt Ideal)) (x3 : (⟨S64, .f32⟩ : BufTy).Contents (Elt Ideal)) (x4 : (⟨S3x64, .f32⟩ : BufTy).Contents (Elt Ideal)) (x5 : (⟨S64x128, .f32⟩ : BufTy).Contents (Elt Ideal)) (x6 : (⟨S128, .f32⟩ : BufTy).Contents (Elt Ideal)) (x7 : (⟨S64x128, .f32⟩ : BufTy).Contents (Elt Ideal)) (x8 : (⟨S128x256, .f32⟩ : BufTy).Contents (Elt Ideal)) (x9 : (⟨S256, .f32⟩ : BufTy).Contents (Elt Ideal)) (x10 : (⟨S128x256, .f32⟩ : BufTy).Contents (Elt Ideal)) (x11 : (⟨S256x6, .f32⟩ : BufTy).Contents (Elt Ideal)) (x12 : (⟨S6, .f32⟩ : BufTy).Contents (Elt Ideal))
    (h : S50000x256.Idx → EReal) (b2 : S1x6.Idx → EReal)
    (hh : h = val_main_v96 (F := Ideal) x0 x1 x2 x3 x4 x5 x6 x7 x8 x9 x10)
    (hb : ∀ q : Fin 6, b2 (ix2 (0 : Fin 1) q) = x12 (ix1 q)) :
    Cert.KernelIdeal.Layer3.headOut h x11 b2 = val_main_v106 (F := Ideal) x0 x1 x2 x3 x4 x5 x6 x7 x8 x9 x10 x11 x12 := by
  subst hh
  funext i
  have el : ∀ k : Fin 256, lidx_main_v97 i k = ix2 (⟨(i 0).val, (i 0).isLt⟩ : Fin 50000) k := fun k =>
    funext fun d => by match d with | ⟨0, _⟩ => rfl | ⟨1, _⟩ => rfl
  have er : ∀ k : Fin 256, ridx_main_v97 i k = ix2 k (⟨(i 1).val, (i 1).isLt⟩ : Fin 6) := fun k =>
    funext fun d => by match d with | ⟨0, _⟩ => rfl | ⟨1, _⟩ => rfl
  have eb : idx_main_v98 (idx_main_v99 i) = ix1 (⟨(i 1).val, (i 1).isLt⟩ : Fin 6) :=
    funext fun d => by match d with | ⟨0, _⟩ => rfl
  rw [val_main_v106_apply, val_main_v105_apply, val_main_cst_20_apply, val_main_v104_apply, val_main_v103_apply, val_main_cst_19_apply,
    val_main_v102_apply, val_main_v101_apply, val_main_v100_apply, val_main_v97_apply, val_main_v99_apply, val_main_v98_apply]
  simp only [el, er, eb]
  unfold Cert.KernelIdeal.Layer3.headOut Cert.KernelIdeal.Layer3.headAt
  rw [hb]
  exact logistic_spelt _

end Cert.Bridge.Layer3

end
-- ==== Proof.KernelValue.lean ====
/-
  The idealized kernel program's result array as a function of the thirteen arguments.

  The program alternates stretches of whole-array operations — the edge lists with a self loop appended at every node, each node's
  in-degree inverted, the gather of the source rows, their sum into the destination rows and the scaling by the inverted degree —
  with four tiled layers. Walking the program from the launch: every stretch's results are its operations applied to what the
  buffers held before it; every tiled layer leaves its output array at the layer's whole-array function of its five (for the head:
  three) input arrays, and every other buffer as it was. Stage by stage the buffers are identified with the reference program's own
  stages, read as functions of the arguments: the averages of layer `ℓ`, the output of layer `ℓ`, and last the result.
-/
import proofs.«128528_j9612136808894_1_alg».proof.Proof.Gen.KernelIdeal.Frame
import proofs.«128528_j9612136808894_1_alg».proof.Proof.BridgeLayer0
import proofs.«128528_j9612136808894_1_alg».proof.Proof.BridgeLayer1
import proofs.«128528_j9612136808894_1_alg».proof.Proof.BridgeLayer2
import proofs.«128528_j9612136808894_1_alg».proof.Proof.BridgeHead
import Idealize.ShloMosaic.Lib.StableHlo.Run

set_option maxRecDepth 16384

noncomputable section

namespace Cert.KernelIdeal.ResultValue

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg) (c : Dev nD)

/-! ## The arguments, read back through the program: nothing writes one -/

theorem arg0_at1 : W1 m ρ c (Proc.devRef .tc main_arg0) = (m ((c : Thread nD τ).loc main_arg0)) := by
  show StableHlo.after hostOps0 (W0 m ρ c) (Proc.devRef .tc main_arg0) = _
  dsimp only [hostOps0]; after_results
theorem arg1_at1 : W1 m ρ c (Proc.devRef .tc main_arg1) = (m ((c : Thread nD τ).loc main_arg1)) := by
  show StableHlo.after hostOps0 (W0 m ρ c) (Proc.devRef .tc main_arg1) = _
  dsimp only [hostOps0]; after_results
theorem arg2_at1 : W1 m ρ c (Proc.devRef .tc main_arg2) = (m ((c : Thread nD τ).loc main_arg2)) := by
  show StableHlo.after hostOps0 (W0 m ρ c) (Proc.devRef .tc main_arg2) = _
  dsimp only [hostOps0]; after_results
theorem arg3_at1 : W1 m ρ c (Proc.devRef .tc main_arg3) = (m ((c : Thread nD τ).loc main_arg3)) := by
  show StableHlo.after hostOps0 (W0 m ρ c) (Proc.devRef .tc main_arg3) = _
  dsimp only [hostOps0]; after_results
theorem arg4_at1 : W1 m ρ c (Proc.devRef .tc main_arg4) = (m ((c : Thread nD τ).loc main_arg4)) := by
  show StableHlo.after hostOps0 (W0 m ρ c) (Proc.devRef .tc main_arg4) = _
  dsimp only [hostOps0]; after_results
theorem arg5_at1 : W1 m ρ c (Proc.devRef .tc main_arg5) = (m ((c : Thread nD τ).loc main_arg5)) := by
  show StableHlo.after hostOps0 (W0 m ρ c) (Proc.devRef .tc main_arg5) = _
  dsimp only [hostOps0]; after_results
theorem arg6_at1 : W1 m ρ c (Proc.devRef .tc main_arg6) = (m ((c : Thread nD τ).loc main_arg6)) := by
  show StableHlo.after hostOps0 (W0 m ρ c) (Proc.devRef .tc main_arg6) = _
  dsimp only [hostOps0]; after_results
theorem arg7_at1 : W1 m ρ c (Proc.devRef .tc main_arg7) = (m ((c : Thread nD τ).loc main_arg7)) := by
  show StableHlo.after hostOps0 (W0 m ρ c) (Proc.devRef .tc main_arg7) = _
  dsimp only [hostOps0]; after_results
theorem arg8_at1 : W1 m ρ c (Proc.devRef .tc main_arg8) = (m ((c : Thread nD τ).loc main_arg8)) := by
  show StableHlo.after hostOps0 (W0 m ρ c) (Proc.devRef .tc main_arg8) = _
  dsimp only [hostOps0]; after_results
theorem arg9_at1 : W1 m ρ c (Proc.devRef .tc main_arg9) = (m ((c : Thread nD τ).loc main_arg9)) := by
  show StableHlo.after hostOps0 (W0 m ρ c) (Proc.devRef .tc main_arg9) = _
  dsimp only [hostOps0]; after_results
theorem arg10_at1 : W1 m ρ c (Proc.devRef .tc main_arg10) = (m ((c : Thread nD τ).loc main_arg10)) := by
  show StableHlo.after hostOps0 (W0 m ρ c) (Proc.devRef .tc main_arg10) = _
  dsimp only [hostOps0]; after_results
theorem arg11_at1 : W1 m ρ c (Proc.devRef .tc main_arg11) = (m ((c : Thread nD τ).loc main_arg11)) := by
  show StableHlo.after hostOps0 (W0 m ρ c) (Proc.devRef .tc main_arg11) = _
  dsimp only [hostOps0]; after_results
theorem arg12_at1 : W1 m ρ c (Proc.devRef .tc main_arg12) = (m ((c : Thread nD τ).loc main_arg12)) := by
  show StableHlo.after hostOps0 (W0 m ρ c) (Proc.devRef .tc main_arg12) = _
  dsimp only [hostOps0]; after_results
theorem arg5_at2 : W2 m ρ c (Proc.devRef .tc main_arg5) = (m ((c : Thread nD τ).loc main_arg5)) :=
  (W2_of_ne m ρ c main_arg5 (by decide)).trans (arg5_at1 m ρ c)
theorem arg5_at3 : W3 m ρ c (Proc.devRef .tc main_arg5) = (m ((c : Thread nD τ).loc main_arg5)) := by
  show StableHlo.after hostOps1 (W2 m ρ c) (Proc.devRef .tc main_arg5) = _
  dsimp only [hostOps1]; after_results
  exact arg5_at2 m ρ c
theorem arg6_at2 : W2 m ρ c (Proc.devRef .tc main_arg6) = (m ((c : Thread nD τ).loc main_arg6)) :=
  (W2_of_ne m ρ c main_arg6 (by decide)).trans (arg6_at1 m ρ c)
theorem arg6_at3 : W3 m ρ c (Proc.devRef .tc main_arg6) = (m ((c : Thread nD τ).loc main_arg6)) := by
  show StableHlo.after hostOps1 (W2 m ρ c) (Proc.devRef .tc main_arg6) = _
  dsimp only [hostOps1]; after_results
  exact arg6_at2 m ρ c
theorem arg7_at2 : W2 m ρ c (Proc.devRef .tc main_arg7) = (m ((c : Thread nD τ).loc main_arg7)) :=
  (W2_of_ne m ρ c main_arg7 (by decide)).trans (arg7_at1 m ρ c)
theorem arg7_at3 : W3 m ρ c (Proc.devRef .tc main_arg7) = (m ((c : Thread nD τ).loc main_arg7)) := by
  show StableHlo.after hostOps1 (W2 m ρ c) (Proc.devRef .tc main_arg7) = _
  dsimp only [hostOps1]; after_results
  exact arg7_at2 m ρ c
theorem arg8_at2 : W2 m ρ c (Proc.devRef .tc main_arg8) = (m ((c : Thread nD τ).loc main_arg8)) :=
  (W2_of_ne m ρ c main_arg8 (by decide)).trans (arg8_at1 m ρ c)
theorem arg8_at3 : W3 m ρ c (Proc.devRef .tc main_arg8) = (m ((c : Thread nD τ).loc main_arg8)) := by
  show StableHlo.after hostOps1 (W2 m ρ c) (Proc.devRef .tc main_arg8) = _
  dsimp only [hostOps1]; after_results
  exact arg8_at2 m ρ c
theorem arg9_at2 : W2 m ρ c (Proc.devRef .tc main_arg9) = (m ((c : Thread nD τ).loc main_arg9)) :=
  (W2_of_ne m ρ c main_arg9 (by decide)).trans (arg9_at1 m ρ c)
theorem arg9_at3 : W3 m ρ c (Proc.devRef .tc main_arg9) = (m ((c : Thread nD τ).loc main_arg9)) := by
  show StableHlo.after hostOps1 (W2 m ρ c) (Proc.devRef .tc main_arg9) = _
  dsimp only [hostOps1]; after_results
  exact arg9_at2 m ρ c
theorem arg10_at2 : W2 m ρ c (Proc.devRef .tc main_arg10) = (m ((c : Thread nD τ).loc main_arg10)) :=
  (W2_of_ne m ρ c main_arg10 (by decide)).trans (arg10_at1 m ρ c)
theorem arg10_at3 : W3 m ρ c (Proc.devRef .tc main_arg10) = (m ((c : Thread nD τ).loc main_arg10)) := by
  show StableHlo.after hostOps1 (W2 m ρ c) (Proc.devRef .tc main_arg10) = _
  dsimp only [hostOps1]; after_results
  exact arg10_at2 m ρ c
theorem arg11_at2 : W2 m ρ c (Proc.devRef .tc main_arg11) = (m ((c : Thread nD τ).loc main_arg11)) :=
  (W2_of_ne m ρ c main_arg11 (by decide)).trans (arg11_at1 m ρ c)
theorem arg11_at3 : W3 m ρ c (Proc.devRef .tc main_arg11) = (m ((c : Thread nD τ).loc main_arg11)) := by
  show StableHlo.after hostOps1 (W2 m ρ c) (Proc.devRef .tc main_arg11) = _
  dsimp only [hostOps1]; after_results
  exact arg11_at2 m ρ c
theorem arg12_at2 : W2 m ρ c (Proc.devRef .tc main_arg12) = (m ((c : Thread nD τ).loc main_arg12)) :=
  (W2_of_ne m ρ c main_arg12 (by decide)).trans (arg12_at1 m ρ c)
theorem arg12_at3 : W3 m ρ c (Proc.devRef .tc main_arg12) = (m ((c : Thread nD τ).loc main_arg12)) := by
  show StableHlo.after hostOps1 (W2 m ρ c) (Proc.devRef .tc main_arg12) = _
  dsimp only [hostOps1]; after_results
  exact arg12_at2 m ρ c
theorem arg8_at4 : W4 m ρ c (Proc.devRef .tc main_arg8) = (m ((c : Thread nD τ).loc main_arg8)) :=
  (W4_of_ne m ρ c main_arg8 (by decide)).trans (arg8_at3 m ρ c)
theorem arg8_at5 : W5 m ρ c (Proc.devRef .tc main_arg8) = (m ((c : Thread nD τ).loc main_arg8)) := by
  show StableHlo.after hostOps2 (W4 m ρ c) (Proc.devRef .tc main_arg8) = _
  dsimp only [hostOps2]; after_results
  exact arg8_at4 m ρ c
theorem arg9_at4 : W4 m ρ c (Proc.devRef .tc main_arg9) = (m ((c : Thread nD τ).loc main_arg9)) :=
  (W4_of_ne m ρ c main_arg9 (by decide)).trans (arg9_at3 m ρ c)
theorem arg9_at5 : W5 m ρ c (Proc.devRef .tc main_arg9) = (m ((c : Thread nD τ).loc main_arg9)) := by
  show StableHlo.after hostOps2 (W4 m ρ c) (Proc.devRef .tc main_arg9) = _
  dsimp only [hostOps2]; after_results
  exact arg9_at4 m ρ c
theorem arg10_at4 : W4 m ρ c (Proc.devRef .tc main_arg10) = (m ((c : Thread nD τ).loc main_arg10)) :=
  (W4_of_ne m ρ c main_arg10 (by decide)).trans (arg10_at3 m ρ c)
theorem arg10_at5 : W5 m ρ c (Proc.devRef .tc main_arg10) = (m ((c : Thread nD τ).loc main_arg10)) := by
  show StableHlo.after hostOps2 (W4 m ρ c) (Proc.devRef .tc main_arg10) = _
  dsimp only [hostOps2]; after_results
  exact arg10_at4 m ρ c
theorem arg11_at4 : W4 m ρ c (Proc.devRef .tc main_arg11) = (m ((c : Thread nD τ).loc main_arg11)) :=
  (W4_of_ne m ρ c main_arg11 (by decide)).trans (arg11_at3 m ρ c)
theorem arg11_at5 : W5 m ρ c (Proc.devRef .tc main_arg11) = (m ((c : Thread nD τ).loc main_arg11)) := by
  show StableHlo.after hostOps2 (W4 m ρ c) (Proc.devRef .tc main_arg11) = _
  dsimp only [hostOps2]; after_results
  exact arg11_at4 m ρ c
theorem arg12_at4 : W4 m ρ c (Proc.devRef .tc main_arg12) = (m ((c : Thread nD τ).loc main_arg12)) :=
  (W4_of_ne m ρ c main_arg12 (by decide)).trans (arg12_at3 m ρ c)
theorem arg12_at5 : W5 m ρ c (Proc.devRef .tc main_arg12) = (m ((c : Thread nD τ).loc main_arg12)) := by
  show StableHlo.after hostOps2 (W4 m ρ c) (Proc.devRef .tc main_arg12) = _
  dsimp only [hostOps2]; after_results
  exact arg12_at4 m ρ c
theorem arg11_at6 : W6 m ρ c (Proc.devRef .tc main_arg11) = (m ((c : Thread nD τ).loc main_arg11)) :=
  (W6_of_ne m ρ c main_arg11 (by decide)).trans (arg11_at5 m ρ c)
theorem arg12_at6 : W6 m ρ c (Proc.devRef .tc main_arg12) = (m ((c : Thread nD τ).loc main_arg12)) :=
  (W6_of_ne m ρ c main_arg12 (by decide)).trans (arg12_at5 m ρ c)

/-! ## The edge lists and the inverted degrees: computed before the first layer, never written again -/

theorem src_at1 : W1 m ρ c (Proc.devRef .tc main_v5) = Cert.ReferenceIdeal.Read.val_main_v5 (F := Ideal) (m ((c : Thread nD τ).loc main_arg1)) := by
  show StableHlo.after hostOps0 (W0 m ρ c) (Proc.devRef .tc main_v5) = _
  dsimp only [hostOps0]; after_results
  rfl
theorem src_at2 : W2 m ρ c (Proc.devRef .tc main_v5) = Cert.ReferenceIdeal.Read.val_main_v5 (F := Ideal) (m ((c : Thread nD τ).loc main_arg1)) :=
  (W2_of_ne m ρ c main_v5 (by decide)).trans (src_at1 m ρ c)
theorem src_at3 : W3 m ρ c (Proc.devRef .tc main_v5) = Cert.ReferenceIdeal.Read.val_main_v5 (F := Ideal) (m ((c : Thread nD τ).loc main_arg1)) := by
  show StableHlo.after hostOps1 (W2 m ρ c) (Proc.devRef .tc main_v5) = _
  dsimp only [hostOps1]; after_results
  exact src_at2 m ρ c
theorem src_at4 : W4 m ρ c (Proc.devRef .tc main_v5) = Cert.ReferenceIdeal.Read.val_main_v5 (F := Ideal) (m ((c : Thread nD τ).loc main_arg1)) :=
  (W4_of_ne m ρ c main_v5 (by decide)).trans (src_at3 m ρ c)
theorem dst_at1 : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  dsimp only [hostOps0]; after_results
  rfl
theorem dst_at2 : W2 m ρ c (Proc.devRef .tc main_v6) = Cert.ReferenceIdeal.Read.val_main_v6 (F := Ideal) (m ((c : Thread nD τ).loc main_arg1)) :=
  (W2_of_ne m ρ c main_v6 (by decide)).trans (dst_at1 m ρ c)
theorem dst_at3 : W3 m ρ c (Proc.devRef .tc main_v6) = Cert.ReferenceIdeal.Read.val_main_v6 (F := Ideal) (m ((c : Thread nD τ).loc main_arg1)) := by
  show StableHlo.after hostOps1 (W2 m ρ c) (Proc.devRef .tc main_v6) = _
  dsimp only [hostOps1]; after_results
  exact dst_at2 m ρ c
theorem dst_at4 : W4 m ρ c (Proc.devRef .tc main_v6) = Cert.ReferenceIdeal.Read.val_main_v6 (F := Ideal) (m ((c : Thread nD τ).loc main_arg1)) :=
  (W4_of_ne m ρ c main_v6 (by decide)).trans (dst_at3 m ρ c)
theorem deg_at1 : W1 m ρ c (Proc.devRef .tc main_v14) = Cert.ReferenceIdeal.Read.val_main_v14 (F := Ideal) (m ((c : Thread nD τ).loc main_arg1)) := by
  show StableHlo.after hostOps0 (W0 m ρ c) (Proc.devRef .tc main_v14) = _
  dsimp only [hostOps0]; after_results
  rfl
theorem deg_at2 : W2 m ρ c (Proc.devRef .tc main_v14) = Cert.ReferenceIdeal.Read.val_main_v14 (F := Ideal) (m ((c : Thread nD τ).loc main_arg1)) :=
  (W2_of_ne m ρ c main_v14 (by decide)).trans (deg_at1 m ρ c)
theorem deg_at3 : W3 m ρ c (Proc.devRef .tc main_v14) = Cert.ReferenceIdeal.Read.val_main_v14 (F := Ideal) (m ((c : Thread nD τ).loc main_arg1)) := by
  show StableHlo.after hostOps1 (W2 m ρ c) (Proc.devRef .tc main_v14) = _
  dsimp only [hostOps1]; after_results
  exact deg_at2 m ρ c
theorem deg_at4 : W4 m ρ c (Proc.devRef .tc main_v14) = Cert.ReferenceIdeal.Read.val_main_v14 (F := Ideal) (m ((c : Thread nD τ).loc main_arg1)) :=
  (W4_of_ne m ρ c main_v14 (by decide)).trans (deg_at3 m ρ c)

/-! ## Layer 1 -/

set_option maxHeartbeats 8000000 in
theorem in0_agg : V1 m ρ c main_v27 = Cert.ReferenceIdeal.Read.val_main_v27 (F := Ideal) (m ((c : Thread nD τ).loc main_arg0)) (m ((c : Thread nD τ).loc main_arg1)) := by
  show StableHlo.after hostOps0 (W0 m ρ c) (Proc.devRef .tc main_v27) = _
  dsimp only [hostOps0]; after_results_simp
  rfl
theorem in0_b : V1 m ρ c main_v28 = shapeCast S1x64 (m ((c : Thread nD τ).loc main_arg3)) shapeCasts_S64_S1x64 := by
  show StableHlo.after hostOps0 (W0 m ρ c) (Proc.devRef .tc main_v28) = _
  dsimp only [hostOps0]; after_results
  rfl
/-- The first layer's output array is the reference's first layer. -/
theorem out0 : W2 m ρ c (Proc.devRef .tc main_v29) = Cert.ReferenceIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  rw [Layer0.output_eq (V1 m ρ) c]
  rw [show V1 m ρ c main_arg2 = (m ((c : Thread nD τ).loc main_arg2)) from arg2_at1 m ρ c, show V1 m ρ c main_arg4 = (m ((c : Thread nD τ).loc main_arg4)) from arg4_at1 m ρ c]
  exact Cert.Bridge.Layer0.layer_eq _ _ _ _ _ _ _ _ (in0_agg m ρ c) (arg0_at1 m ρ c)
    (fun q => by rw [in0_b m ρ c]; exact shapeCast_a_1a_apply _ _ 0 q)

/-! ## Layer 2 -/

set_option maxHeartbeats 8000000 in
theorem in1_agg : V3 m ρ c main_v42 = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v42) = _
  dsimp only [hostOps1]; after_results_simp
  rw [out0 m ρ c, src_at2 m ρ c, dst_at2 m ρ c, deg_at2 m ρ c]
  rfl
theorem in1_x : V3 m ρ c main_v29 = Cert.ReferenceIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v29) = _
  dsimp only [hostOps1]; after_results
  exact out0 m ρ c
theorem in1_b : V3 m ρ c main_v43 = shapeCast S1x128 (m ((c : Thread nD τ).loc main_arg6)) shapeCasts_S128_S1x128 := by
  show StableHlo.after hostOps1 (W2 m ρ c) (Proc.devRef .tc main_v43) = _
  dsimp only [hostOps1]; after_results
  rw [arg6_at2 m ρ c]
  rfl
/-- The second layer's output array is the reference's second layer. -/
theorem out1 : W4 m ρ c (Proc.devRef .tc main_v44) = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ?_
  rw [Layer1.output_eq (V3 m ρ) c]
  rw [show V3 m ρ c main_arg5 = (m ((c : Thread nD τ).loc main_arg5)) from arg5_at3 m ρ c, show V3 m ρ c main_arg7 = (m ((c : Thread nD τ).loc main_arg7)) from arg7_at3 m ρ c]
  exact Cert.Bridge.Layer1.layer_eq _ _ _ _ _ _ _ _ _ _ _ (in1_agg m ρ c) (in1_x m ρ c)
    (fun q => by rw [in1_b m ρ c]; exact shapeCast_a_1a_apply _ _ 0 q)

/-! ## Layer 3 -/

set_option maxHeartbeats 8000000 in
theorem in2_agg : V5 m ρ c main_v57 = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v57) = _
  dsimp only [hostOps2]; after_results_simp
  rw [out1 m ρ c, src_at4 m ρ c, dst_at4 m ρ c, deg_at4 m ρ c]
  rfl
theorem in2_x : V5 m ρ c main_v44 = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v44) = _
  dsimp only [hostOps2]; after_results
  exact out1 m ρ c
theorem in2_b : V5 m ρ c main_v58 = shapeCast S1x256 (m ((c : Thread nD τ).loc main_arg9)) shapeCasts_S256_S1x256 := by
  show StableHlo.after hostOps2 (W4 m ρ c) (Proc.devRef .tc main_v58) = _
  dsimp only [hostOps2]; after_results
  rw [arg9_at4 m ρ c]
  rfl
/-- The third layer's output array is the reference's third layer. -/
theorem out2 : W6 m ρ c (Proc.devRef .tc main_v59) = Cert.ReferenceIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 5).trans ?_
  rw [Layer2.output_eq (V5 m ρ) c]
  rw [show V5 m ρ c main_arg8 = (m ((c : Thread nD τ).loc main_arg8)) from arg8_at5 m ρ c, show V5 m ρ c main_arg10 = (m ((c : Thread nD τ).loc main_arg10)) from arg10_at5 m ρ c]
  exact Cert.Bridge.Layer2.layer_eq _ _ _ _ _ _ _ _ _ _ _ _ _ _ (in2_agg m ρ c) (in2_x m ρ c)
    (fun q => by rw [in2_b m ρ c]; exact shapeCast_a_1a_apply _ _ 0 q)

/-! ## The head -/

theorem in3_h : V7 m ρ c main_v59 = Cert.ReferenceIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps3 (W6 m ρ c) (Proc.devRef .tc main_v59) = _
  dsimp only [hostOps3]; after_results
  exact out2 m ρ c
theorem in3_w : V7 m ρ c main_arg11 = (m ((c : Thread nD τ).loc main_arg11)) := by
  show StableHlo.after hostOps3 (W6 m ρ c) (Proc.devRef .tc main_arg11) = _
  dsimp only [hostOps3]; after_results
  exact arg11_at6 m ρ c
theorem in3_b : V7 m ρ c main_v60 = shapeCast S1x6 (m ((c : Thread nD τ).loc main_arg12)) shapeCasts_S6_S1x6 := by
  show StableHlo.after hostOps3 (W6 m ρ c) (Proc.devRef .tc main_v60) = _
  dsimp only [hostOps3]; after_results
  rw [arg12_at6 m ρ c]
  rfl
/-- THE RESULT ARRAY is the reference's result, as a function of the thirteen arguments. -/
theorem result_eq : W8 m ρ c (Proc.devRef .tc main_v61) = Cert.ReferenceIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W8_arr m ρ c 3).trans ?_
  rw [Layer3.output_eq (V7 m ρ) c]
  rw [in3_w m ρ c]
  exact Cert.Bridge.Layer3.head_eq _ _ _ _ _ _ _ _ _ _ _ _ _ _ _ (in3_h m ρ c)
    (fun q => by rw [in3_b m ρ c]; exact shapeCast_a_1a_apply _ _ 0 q)

end Cert.KernelIdeal.ResultValue

end
-- ==== Proof.lean ====
/-
  A three-layer graph convolution network with a logistic output head, tiled, against its plain reference.

  Each layer takes the node features `h` (50000 rows), averages them over every node's in-neighbourhood — the edge list with a self
  loop appended at every node; gather the source rows, sum them into the destination rows, scale by one over the in-degree
  (at least 1) — and returns `max (avg·W + h·W_root + b, 0)`; the head returns the logistic function of `h·W_lin + b_lin`.
  The kernel program computes the neighbourhood averages with the same whole-array operations as the reference and runs the dense
  part of each layer tile by tile over 25 blocks of 2000 rows, rounding the operands of its matrix products to a shorter float
  format on the way in. Read on the extended reals a change of float format is the identity and every product is a plain sum over
  the contracted axis, so the two programs differ only in the order in which a layer adds its three terms — (avg·W + h·W_root) + b
  in the kernel, (avg·W + b) + h·W_root in the reference: addition is commutative and associative there, at the infinities too —
  and in how the logistic function is spelt. The precondition (finite inputs) is not used by the value argument.

  The three frames: the kernel program's two are the generated frame certificates; the reference's is its generated run with the
  result dropped. The idealization rewrote no operation, so its claim is `True`. The value claim: the kernel program's run with its
  result named (KernelRun), that result as the reference's last stage read as a function of the arguments (KernelValue, over the
  per-layer modules), and the reference's generated run and stages.
-/
import proofs.«128528_j9612136808894_1_alg».proof.Defs
import proofs.«128528_j9612136808894_1_alg».proof.Proof.Gen.Kernel
import proofs.«128528_j9612136808894_1_alg».proof.Proof.Gen.Kernel.Skeleton
import proofs.«128528_j9612136808894_1_alg».proof.Proof.Gen.Kernel.Launch
import proofs.«128528_j9612136808894_1_alg».proof.Proof.Gen.Kernel.Points
import proofs.«128528_j9612136808894_1_alg».proof.Proof.Gen.Kernel.Frame
import proofs.«128528_j9612136808894_1_alg».proof.Proof.Gen.KernelIdeal
import proofs.«128528_j9612136808894_1_alg».proof.Proof.Gen.KernelIdeal.Skeleton
import proofs.«128528_j9612136808894_1_alg».proof.Proof.Gen.KernelIdeal.Launch
import proofs.«128528_j9612136808894_1_alg».proof.Proof.Gen.KernelIdeal.Points
import proofs.«128528_j9612136808894_1_alg».proof.Proof.Gen.KernelIdeal.Frame
import proofs.«128528_j9612136808894_1_alg».proof.Proof.Gen.ReferenceIdeal
import proofs.«128528_j9612136808894_1_alg».proof.Proof.Gen.Pre_finite_inputs
import proofs.«128528_j9612136808894_1_alg».proof.Proof.Gen.ReferenceIdeal.Run
import proofs.«128528_j9612136808894_1_alg».proof.Proof.Gen.ReferenceIdeal.Read
import proofs.«128528_j9612136808894_1_alg».proof.Proof.KernelRun
import proofs.«128528_j9612136808894_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the reference's last stage read as a function of the (agreeing) arguments. -/
theorem algebraic : Cert.algebraic_KernelIdeal_ReferenceIdeal := by
  intro m ρ m' ρ' _ hagree
  refine ⟨fun c => Cert.ReferenceIdeal.Read.val_main_v106 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.ResultValue.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v106_eq, e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
